-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S32000 : Shape := ⟨1, ![32000]⟩
abbrev S1 : Shape := ⟨1, ![1]⟩
abbrev S32000x1024 : Shape := ⟨2, ![32000, 1024]⟩
abbrev S1024 : Shape := ⟨1, ![1024]⟩
abbrev S1024x2 : Shape := ⟨2, ![1024, 2]⟩
abbrev S2 : Shape := ⟨1, ![2]⟩
abbrev S_ : Shape := ⟨0, ![]⟩

class Facts : Prop where
  bcast_S_S32000 : S_.BroadcastsInDim S32000 (![] : Fin 0 → Fin S32000.rank)
  reducesTo_S32000_S_d0 : S32000.ReducesTo [0] S_
  h_S_ : 0 < S_.numel
  bcast_S_S1 : S_.BroadcastsInDim S1 (![] : Fin 0 → Fin S1.rank)
  reducesTo_S1_S_d0 : S1.ReducesTo [0] S_
  bcast_S_S32000x1024 : S_.BroadcastsInDim S32000x1024 (![] : Fin 0 → Fin S32000x1024.rank)
  reducesTo_S32000x1024_S_d0_1 : S32000x1024.ReducesTo [0, 1] S_
  bcast_S_S1024 : S_.BroadcastsInDim S1024 (![] : Fin 0 → Fin S1024.rank)
  reducesTo_S1024_S_d0 : S1024.ReducesTo [0] S_
  bcast_S_S1024x2 : S_.BroadcastsInDim S1024x2 (![] : Fin 0 → Fin S1024x2.rank)
  reducesTo_S1024x2_S_d0_1 : S1024x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S1024x2 .f32) (main_arg6 : FVec F S2 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2 .f32 := Host.absf main_arg5
  let main_cst_6 : FVec F S_ .f32 := constant S_ .f32 0x7F800000#32
  let main_v20 : FVec F S1024x2 .f32 := broadcastInDim S1024x2 ![] bcast_S_S1024x2 main_cst_6
  let main_v21 : IVec S1024x2 1 := cmpf .olt main_v19 main_v20
  let main_c_7 : IVec S_ 1 := constantI S_ 1 1#1
  let main_v22 : IVec S_ 1 := (fun x v => Host.reduce IntOp.andi x v reducesTo_S1024x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : IVec S128x2048 32) (main_arg1 : FVec F S32000 .f32) (main_arg2 : FVec F S1 .f32) (main_arg3 : FVec F S32000x1024 .f32) (main_arg4 : FVec F S1024 .f32) (main_arg5 : FVec F S1024x2 .f32) (main_arg6 : FVec F S2 .f32) : IVec S_ 1 :=
  let main_v0 : FVec F S32000 .f32 := Host.absf main_arg1
  let main_cst : FVec F S_ .f32 := constant S_ .f32 0x7F800000#32
  let main_v1 : FVec F S32000 .f32 := broadcastInDim S32000 ![] bcast_S_S32000 main_cst
  let main_v2 : IVec S32000 1 := cmpf .olt main_v0 main_v1
  let main_c : IVec S_ 1 := constantI S_ 1 1#1
  let main_v3 : IVec S_ 1 := (fun x v => Host.reduce IntOp.andi x v reducesTo_S32000_S_d0 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S32000x1024 .f32 := Host.absf main_arg3
  let main_cst_2 : FVec F S_ .f32 := constant S_ .f32 0x7F800000#32
  let main_v10 : FVec F S32000x1024 .f32 := broadcastInDim S32000x1024 ![] bcast_S_S32000x1024 main_cst_2
  let main_v11 : IVec S32000x1024 1 := cmpf .olt main_v9 main_v10
  let main_c_3 : IVec S_ 1 := constantI S_ 1 1#1
  let main_v12 : IVec S_ 1 := (fun x v => Host.reduce IntOp.andi x v reducesTo_S32000x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_v13 main_v16
-- ==== Kernel.lean ====
abbrev S128x2048 : Shape := ⟨2, ![128, 2048]⟩
abbrev S32000 : Shape := ⟨1, ![32000]⟩
abbrev S1 : Shape := ⟨1, ![1]⟩
abbrev S32000x1024 : Shape := ⟨2, ![32000, 1024]⟩
abbrev S1024 : Shape := ⟨1, ![1024]⟩
abbrev S1024x2 : Shape := ⟨2, ![1024, 2]⟩
abbrev S2 : Shape := ⟨1, ![2]⟩
abbrev S_ : Shape := ⟨0, ![]⟩
abbrev S128x2048x1 : Shape := ⟨3, ![128, 2048, 1]⟩
abbrev S128 : Shape := ⟨1, ![128]⟩
abbrev S128x1 : Shape := ⟨2, ![128, 1]⟩
abbrev S128x32000 : Shape := ⟨2, ![128, 32000]⟩
abbrev S128x2048x2 : Shape := ⟨3, ![128, 2048, 2]⟩
abbrev S1x1024 : Shape := ⟨2, ![1, 1024]⟩
abbrev S1x2 : Shape := ⟨2, ![1, 2]⟩
abbrev S128x2 : Shape := ⟨2, ![128, 2]⟩
abbrev S128x3200 : Shape := ⟨2, ![128, 3200]⟩
abbrev S3200x1024 : Shape := ⟨2, ![3200, 1024]⟩
abbrev S128x1024 : Shape := ⟨2, ![128, 1024]⟩

abbrev nBuf : Space → Nat
  | .hbm => 67
  | .vmem => 9
  | .smem => 0
  | _ => 0

abbrev bufTy : (tb : Table) → Fin (tcTables nBuf tb) → BufTy
  | .hbm, ⟨0, _⟩ => ⟨S128x2048, .i32⟩
  | .hbm, ⟨1, _⟩ => ⟨S32000, .f32⟩
  | .hbm, ⟨2, _⟩ => ⟨S1, .f32⟩
  | .hbm, ⟨3, _⟩ => ⟨S32000x1024, .f32⟩
  | .hbm, ⟨4, _⟩ => ⟨S1024, .f32⟩
  | .hbm, ⟨5, _⟩ => ⟨S1024x2, .f32⟩
  | .hbm, ⟨6, _⟩ => ⟨S2, .f32⟩
  | .hbm, ⟨7, _⟩ => ⟨S_, .i32⟩
  | .hbm, ⟨8, _⟩ => ⟨S128x2048, .i32⟩
  | .hbm, ⟨9, _⟩ => ⟨S128x2048, .i1⟩
  | .hbm, ⟨10, _⟩ => ⟨S_, .i32⟩
  | .hbm, ⟨11, _⟩ => ⟨S128x2048, .i32⟩
  | .hbm, ⟨12, _⟩ => ⟨S128x2048, .i32⟩
  | .hbm, ⟨13, _⟩ => ⟨S128x2048, .i32⟩
  | .hbm, ⟨14, _⟩ => ⟨S128x2048x1, .i32⟩
  | .hbm, ⟨15, _⟩ => ⟨S128x2048, .f32⟩
  | .hbm, ⟨16, _⟩ => ⟨S_, .f32⟩
  | .hbm, ⟨17, _⟩ => ⟨S128x2048, .f32⟩
  | .hbm, ⟨18, _⟩ => ⟨S128x2048, .f32⟩
  | .hbm, ⟨19, _⟩ => ⟨S_, .i32⟩
  | .hbm, ⟨20, _⟩ => ⟨S128x2048, .i32⟩
  | .hbm, ⟨21, _⟩ => ⟨S128x2048, .i1⟩
  | .hbm, ⟨22, _⟩ => ⟨S_, .f32⟩
  | .hbm, ⟨23, _⟩ => ⟨S_, .f32⟩
  | .hbm, ⟨24, _⟩ => ⟨S128x2048, .f32⟩
  | .hbm, ⟨25, _⟩ => ⟨S128x2048, .f32⟩
  | .hbm, ⟨26, _⟩ => ⟨S_, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128x1, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S_, .f32⟩
  | .hbm, ⟨36, _⟩ => ⟨S128, .f32⟩
  | .hbm, ⟨37, _⟩ => ⟨S128x1, .f32⟩
  | .hbm, ⟨38, _⟩ => ⟨S128x2048, .f32⟩
  | .hbm, ⟨39, _⟩ => ⟨S128x2048, .f32⟩
  | .hbm, ⟨40, _⟩ => ⟨S128, .i32⟩
  | .hbm, ⟨41, _⟩ => ⟨S128x1, .i32⟩
  | .hbm, ⟨42, _⟩ => ⟨S_, .f32⟩
  | .hbm, ⟨43, _⟩ => ⟨S128x32000, .f32⟩
  | .hbm, ⟨44, _⟩ => ⟨S_, .i32⟩
  | .hbm, ⟨45, _⟩ => ⟨S128x1, .i32⟩
  | .hbm, ⟨46, _⟩ => ⟨S128x1, .i1⟩
  | .hbm, ⟨47, _⟩ => ⟨S_, .i32⟩
  | .hbm, ⟨48, _⟩ => ⟨S128x1, .i32⟩
  | .hbm, ⟨49, _⟩ => ⟨S128x1, .i32⟩
  | .hbm, ⟨50, _⟩ => ⟨S128x1, .i32⟩
  | .hbm, ⟨51, _⟩ => ⟨S_, .i32⟩
  | .hbm, ⟨52, _⟩ => ⟨S128x2048, .i32⟩
  | .hbm, ⟨53, _⟩ => ⟨S128x2048, .i1⟩
  | .hbm, ⟨54, _⟩ => ⟨S_, .i32⟩
  | .hbm, ⟨55, _⟩ => ⟨S128x2048, .i32⟩
  | .hbm, ⟨56, _⟩ => ⟨S128x2048, .i32⟩
  | .hbm, ⟨57, _⟩ => ⟨S128x2048, .i32⟩
  | .hbm, ⟨58, _⟩ => ⟨S128x2048, .i32⟩
  | .hbm, ⟨59, _⟩ => ⟨S128x2048x1, .i32⟩
  | .hbm, ⟨60, _⟩ => ⟨S128x2048x1, .i32⟩
  | .hbm, ⟨61, _⟩ => ⟨S128x2048x2, .i32⟩
  | .hbm, ⟨62, _⟩ => ⟨S128x32000, .f32⟩
  | .hbm, ⟨63, _⟩ => ⟨S128x32000, .bf16⟩
  | .hbm, ⟨64, _⟩ => ⟨S1x1024, .f32⟩
  | .hbm, ⟨65, _⟩ => ⟨S1x2, .f32⟩
  | .hbm, ⟨66, _⟩ => ⟨S128x2, .f32⟩
  | .local _ .vmem, ⟨0, _⟩ => ⟨S128x3200, .bf16⟩
  | .local _ .vmem, ⟨1, _⟩ => ⟨S128x3200, .bf16⟩
  | .local _ .vmem, ⟨2, _⟩ => ⟨S3200x1024, .f32⟩
  | .local _ .vmem, ⟨3, _⟩ => ⟨S3200x1024, .f32⟩
  | .local _ .vmem, ⟨4, _⟩ => ⟨S1x1024, .f32⟩
  | .local _ .vmem, ⟨5, _⟩ => ⟨S1024x2, .f32⟩
  | .local _ .vmem, ⟨6, _⟩ => ⟨S1x2, .f32⟩
  | .local _ .vmem, ⟨7, _⟩ => ⟨S128x2, .f32⟩
  | .local _ .vmem, ⟨8, _⟩ => ⟨S128x1024, .f32⟩
  | _, _ => ⟨S128x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v13 : BitVec 1 := Scalar.cmpi .eq arg0 c9_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S128x2048 : S_.BroadcastsInDim S128x2048 (![] : Fin 0 → Fin S128x2048.rank)
  bcast_S128x2048_S128x2048x1_0_1 : S128x2048.BroadcastsInDim S128x2048x1 (![0, 1] : Fin 2 → Fin S128x2048x1.rank)
  shapeCasts_S1_S_ : S1.ShapeCasts S_
  reducesTo_S128x2048_S128_d1 : S128x2048.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x2048_0_1 : S128x1.BroadcastsInDim S128x2048 (![0, 1] : Fin 2 → Fin S128x2048.rank)
  bcast_S_S128x32000 : S_.BroadcastsInDim S128x32000 (![] : Fin 0 → Fin S128x32000.rank)
  bcast_S_S128x1 : S_.BroadcastsInDim S128x1 (![] : Fin 0 → Fin S128x1.rank)
  concatenates_S128x2048x1_S128x2048x1_S128x2048x2_d2 : Shape.Concatenates [S128x2048x1, S128x2048x1] S128x2048x2 2
  bitsLt_bf16_f32 : FTy.bits .bf16 < FTy.bits .f32
  shapeCasts_S1024_S1x1024 : S1024.ShapeCasts S1x1024
  shapeCasts_S2_S1x2 : S2.ShapeCasts S1x2
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S3200x1024_S3200x1024_0_0 : ∀ a, (![0, 0] : Fin 2 → Nat) a + S3200x1024.size a ≤ S3200x1024.size a
  h_S3200x1024 : 0 < S3200x1024.numel
  inb_S128x3200_S128x3200_0_0 : ∀ a, (![0, 0] : Fin 2 → Nat) a + S128x3200.size a ≤ S128x3200.size a
  h_S128x3200 : 0 < S128x3200.numel
  shapeCasts_S128x3200_S128x3200 : S128x3200.ShapeCasts S128x3200
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x2_S1024x2_0_0 : ∀ a, (![0, 0] : Fin 2 → Nat) a + S1024x2.size a ≤ S1024x2.size a
  h_S1024x2 : 0 < S1024x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  reduces_S128x2_S128 : S128x2.Reduces [1] S128
  shapeCasts_S128_S128x1 : S128.ShapeCasts S128x1
  broadcasts_S128x1_S128x2 : S128x1.Broadcasts S128x2
  inb_S128x2_S128x2_0_0 : ∀ a, (![0, 0] : Fin 2 → Nat) a + S128x2.size a ≤ S128x2.size a
  h_S128x2 : 0 < S128x2.numel
  gather_S32000_S128x2048x1_S128x2048_n_0_n_n_0_2_1_wf : GatherDims.WF S32000 S128x2048x1 S128x2048 [] [0] [] [0] [] 2 ![1]
  scatter_S128x32000_S128x2048x2_S128x2048_n_01_01_2_wf : ScatterDims.WF S128x32000 S128x2048x2 S128x2048 [] [0, 1] [0, 1] 2
  dot_S128x3200_S3200x1024_S128x1024_1_0_0_1_n_n_wf : DotDims.WF S128x3200 S3200x1024 S128x1024 [1] [0] [0] [1] [] []
  dot_S128x1024_S1024x2_S128x2_1_0_0_1_n_n_wf : DotDims.WF S128x1024 S1024x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3200.size a ≤ S128x32000.size a
  hwx0_0 : ∀ i : grid0.Coords, EltTy.bits .bf16 = 32 ∨ (Rect.block (s := S128x32000) S128x3200.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x1024.size a ≤ S32000x1024.size a
  hwx0_1 : ∀ i : grid0.Coords, EltTy.bits .f32 = 32 ∨ (Rect.block (s := S32000x1024) S3200x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2.size a ≤ S1024x2.size a
  hwx0_3 : ∀ i : grid0.Coords, EltTy.bits .f32 = 32 ∨ (Rect.block (s := S1024x2) S1024x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x2.size a ≤ S128x2.size a
  hwx0_5 : ∀ i : grid0.Coords, EltTy.bits .f32 = 32 ∨ (Rect.block (s := S128x2) S128x2.size (cc0_transform_5 i) (hinb0_5 i)).WholeWords (EltTy.packing .f32)

variable [Facts₀]

def gather_S32000_S128x2048x1_S128x2048_n_0_n_n_0_2_1 : GatherDims S32000 S128x2048x1 S128x2048 where
  offsetDims := []
  collapsedSliceDims := [0]
  operandBatchingDims := []
  startIndicesBatchingDims := []
  startIndexMap := [0]
  indexVectorDim := 2
  sliceSizes := ![1]
  wf := gather_S32000_S128x2048x1_S128x2048_n_0_n_n_0_2_1_wf
def scatter_S128x32000_S128x2048x2_S128x2048_n_01_01_2 : ScatterDims S128x32000 S128x2048x2 S128x2048 where
  updateWindowDims := []
  insertedWindowDims := [0, 1]
  scatterDimsToOperandDims := [0, 1]
  indexVectorDim := 2
  wf := scatter_S128x32000_S128x2048x2_S128x2048_n_01_01_2_wf
def dot_S128x3200_S3200x1024_S128x1024_1_0_0_1_n_n : DotDims S128x3200 S3200x1024 S128x1024 where
  lhsContracting := [1]
  rhsContracting := [0]
  lhsNonContracting := [0]
  rhsNonContracting := [1]
  lhsBatch := []
  rhsBatch := []
  wf := dot_S128x3200_S3200x1024_S128x1024_1_0_0_1_n_n_wf
def dot_S128x1024_S1024x2_S128x2_1_0_0_1_n_n : DotDims S128x1024 S1024x2 S128x2 where
  lhsContracting := [1]
  rhsContracting := [0]
  lhsNonContracting := [0]
  rhsNonContracting := [1]
  lhsBatch := []
  rhsBatch := []
  wf := dot_S128x1024_S1024x2_S128x2_1_0_0_1_n_n_wf

abbrev win0_0 : Pipeline.Window sig grid0 :=
  Pipeline.Window.ofSpec (Memref.whole main_v42) S128x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3200x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S128x2.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S128x2048 : Shape := ⟨2, ![128, 2048]⟩
abbrev S32000 : Shape := ⟨1, ![32000]⟩
abbrev S1 : Shape := ⟨1, ![1]⟩
abbrev S32000x1024 : Shape := ⟨2, ![32000, 1024]⟩
abbrev S1024 : Shape := ⟨1, ![1024]⟩
abbrev S1024x2 : Shape := ⟨2, ![1024, 2]⟩
abbrev S2 : Shape := ⟨1, ![2]⟩
abbrev S_ : Shape := ⟨0, ![]⟩
abbrev S128x2048x1 : Shape := ⟨3, ![128, 2048, 1]⟩
abbrev S128 : Shape := ⟨1, ![128]⟩
abbrev S128x1 : Shape := ⟨2, ![128, 1]⟩
abbrev S128x32000 : Shape := ⟨2, ![128, 32000]⟩
abbrev S128x2048x2 : Shape := ⟨3, ![128, 2048, 2]⟩
abbrev S128x1024 : Shape := ⟨2, ![128, 1024]⟩
abbrev S1x1024 : Shape := ⟨2, ![1, 1024]⟩
abbrev S128x2 : Shape := ⟨2, ![128, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S128x2048, .i32⟩
  | .hbm, ⟨1, _⟩ => ⟨S32000, .f32⟩
  | .hbm, ⟨2, _⟩ => ⟨S1, .f32⟩
  | .hbm, ⟨3, _⟩ => ⟨S32000x1024, .f32⟩
  | .hbm, ⟨4, _⟩ => ⟨S1024, .f32⟩
  | .hbm, ⟨5, _⟩ => ⟨S1024x2, .f32⟩
  | .hbm, ⟨6, _⟩ => ⟨S2, .f32⟩
  | .hbm, ⟨7, _⟩ => ⟨S_, .i32⟩
  | .hbm, ⟨8, _⟩ => ⟨S128x2048, .i32⟩
  | .hbm, ⟨9, _⟩ => ⟨S128x2048, .i1⟩
  | .hbm, ⟨10, _⟩ => ⟨S_, .i32⟩
  | .hbm, ⟨11, _⟩ => ⟨S128x2048, .i32⟩
  | .hbm, ⟨12, _⟩ => ⟨S128x2048, .i32⟩
  | .hbm, ⟨13, _⟩ => ⟨S128x2048, .i32⟩
  | .hbm, ⟨14, _⟩ => ⟨S128x2048x1, .i32⟩
  | .hbm, ⟨15, _⟩ => ⟨S128x2048, .f32⟩
  | .hbm, ⟨16, _⟩ => ⟨S_, .f32⟩
  | .hbm, ⟨17, _⟩ => ⟨S128x2048, .f32⟩
  | .hbm, ⟨18, _⟩ => ⟨S128x2048, .f32⟩
  | .hbm, ⟨19, _⟩ => ⟨S_, .i32⟩
  | .hbm, ⟨20, _⟩ => ⟨S128x2048, .i32⟩
  | .hbm, ⟨21, _⟩ => ⟨S128x2048, .i1⟩
  | .hbm, ⟨22, _⟩ => ⟨S_, .f32⟩
  | .hbm, ⟨23, _⟩ => ⟨S_, .f32⟩
  | .hbm, ⟨24, _⟩ => ⟨S128x2048, .f32⟩
  | .hbm, ⟨25, _⟩ => ⟨S128x2048, .f32⟩
  | .hbm, ⟨26, _⟩ => ⟨S_, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128x1, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S_, .f32⟩
  | .hbm, ⟨36, _⟩ => ⟨S128, .f32⟩
  | .hbm, ⟨37, _⟩ => ⟨S128x1, .f32⟩
  | .hbm, ⟨38, _⟩ => ⟨S128x2048, .f32⟩
  | .hbm, ⟨39, _⟩ => ⟨S128x2048, .f32⟩
  | .hbm, ⟨40, _⟩ => ⟨S128, .i32⟩
  | .hbm, ⟨41, _⟩ => ⟨S128x1, .i32⟩
  | .hbm, ⟨42, _⟩ => ⟨S_, .f32⟩
  | .hbm, ⟨43, _⟩ => ⟨S128x32000, .f32⟩
  | .hbm, ⟨44, _⟩ => ⟨S_, .i32⟩
  | .hbm, ⟨45, _⟩ => ⟨S128x1, .i32⟩
  | .hbm, ⟨46, _⟩ => ⟨S128x1, .i1⟩
  | .hbm, ⟨47, _⟩ => ⟨S_, .i32⟩
  | .hbm, ⟨48, _⟩ => ⟨S128x1, .i32⟩
  | .hbm, ⟨49, _⟩ => ⟨S128x1, .i32⟩
  | .hbm, ⟨50, _⟩ => ⟨S128x1, .i32⟩
  | .hbm, ⟨51, _⟩ => ⟨S_, .i32⟩
  | .hbm, ⟨52, _⟩ => ⟨S128x2048, .i32⟩
  | .hbm, ⟨53, _⟩ => ⟨S128x2048, .i1⟩
  | .hbm, ⟨54, _⟩ => ⟨S_, .i32⟩
  | .hbm, ⟨55, _⟩ => ⟨S128x2048, .i32⟩
  | .hbm, ⟨56, _⟩ => ⟨S128x2048, .i32⟩
  | .hbm, ⟨57, _⟩ => ⟨S128x2048, .i32⟩
  | .hbm, ⟨58, _⟩ => ⟨S128x2048, .i32⟩
  | .hbm, ⟨59, _⟩ => ⟨S128x2048x1, .i32⟩
  | .hbm, ⟨60, _⟩ => ⟨S128x2048x1, .i32⟩
  | .hbm, ⟨61, _⟩ => ⟨S128x2048x2, .i32⟩
  | .hbm, ⟨62, _⟩ => ⟨S128x32000, .f32⟩
  | .hbm, ⟨63, _⟩ => ⟨S128x1024, .f32⟩
  | .hbm, ⟨64, _⟩ => ⟨S1x1024, .f32⟩
  | .hbm, ⟨65, _⟩ => ⟨S128x1024, .f32⟩
  | .hbm, ⟨66, _⟩ => ⟨S128x1024, .f32⟩
  | .hbm, ⟨67, _⟩ => ⟨S_, .f32⟩
  | .hbm, ⟨68, _⟩ => ⟨S128x1024, .f32⟩
  | .hbm, ⟨69, _⟩ => ⟨S128x1024, .f32⟩
  | .hbm, ⟨70, _⟩ => ⟨S128x2, .f32⟩
  | .hbm, ⟨71, _⟩ => ⟨S1x2, .f32⟩
  | .hbm, ⟨72, _⟩ => ⟨S128x2, .f32⟩
  | .hbm, ⟨73, _⟩ => ⟨S128x2, .f32⟩
  | .hbm, ⟨74, _⟩ => ⟨S_, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128x1, .f32⟩
  | .hbm, ⟨80, _⟩ => ⟨S128x2, .f32⟩
  | .hbm, ⟨81, _⟩ => ⟨S128x2, .f32⟩
  | .hbm, ⟨82, _⟩ => ⟨S128x2, .f32⟩
  | .hbm, ⟨83, _⟩ => ⟨S_, .f32⟩
  | .hbm, ⟨84, _⟩ => ⟨S128, .f32⟩
  | .hbm, ⟨85, _⟩ => ⟨S128x1, .f32⟩
  | .hbm, ⟨86, _⟩ => ⟨S128x1, .f32⟩
  | .hbm, ⟨87, _⟩ => ⟨S128x2, .f32⟩
  | .hbm, ⟨88, _⟩ => ⟨S128x2, .f32⟩
  | _, _ => ⟨S128x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call2_cst : Ref sig .tc := ⟨.hbm, 74, rfl⟩
abbrev main_call2_v0 : Ref sig .tc := ⟨.hbm, 75, rfl⟩
abbrev main_call2_cst_0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_cst_1 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_v51 : Ref sig .tc := ⟨.hbm, 88, rfl⟩

abbrev nD : Nat := 1
abbrev τ : Topo := Topo.v7x

variable {F : FTy → Type} [FloatOps F]

class Facts₀ : Prop where
  bcast_S_S128x2048 : S_.BroadcastsInDim S128x2048 (![] : Fin 0 → Fin S128x2048.rank)
  bcast_S128x2048_S128x2048x1_0_1 : S128x2048.BroadcastsInDim S128x2048x1 (![0, 1] : Fin 2 → Fin S128x2048x1.rank)
  shapeCasts_S1_S_ : S1.ShapeCasts S_
  reducesTo_S128x2048_S128_d1 : S128x2048.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x2048_0_1 : S128x1.BroadcastsInDim S128x2048 (![0, 1] : Fin 2 → Fin S128x2048.rank)
  bcast_S_S128x32000 : S_.BroadcastsInDim S128x32000 (![] : Fin 0 → Fin S128x32000.rank)
  bcast_S_S128x1 : S_.BroadcastsInDim S128x1 (![] : Fin 0 → Fin S128x1.rank)
  concatenates_S128x2048x1_S128x2048x1_S128x2048x2_d2 : Shape.Concatenates [S128x2048x1, S128x2048x1] S128x2048x2 2
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  reducesTo_S128x2_S128_d1 : S128x2.ReducesTo [1] S128
  bcast_S128x1_S128x2_0_1 : S128x1.BroadcastsInDim S128x2 (![0, 1] : Fin 2 → Fin S128x2.rank)
  gather_S32000_S128x2048x1_S128x2048_n_0_n_n_0_2_1_wf : GatherDims.WF S32000 S128x2048x1 S128x2048 [] [0] [] [0] [] 2 ![1]
  scatter_S128x32000_S128x2048x2_S128x2048_n_01_01_2_wf : ScatterDims.WF S128x32000 S128x2048x2 S128x2048 [] [0, 1] [0, 1] 2
  dot_S128x32000_S32000x1024_S128x1024_1_0_0_1_n_n_wf : DotDims.WF S128x32000 S32000x1024 S128x1024 [1] [0] [0] [1] [] []
  dot_S128x1024_S1024x2_S128x2_1_0_0_1_n_n_wf : DotDims.WF S128x1024 S1024x2 S128x2 [1] [0] [0] [1] [] []

variable [Facts₀]

def gather_S32000_S128x2048x1_S128x2048_n_0_n_n_0_2_1 : GatherDims S32000 S128x2048x1 S128x2048 where
  offsetDims := []
  collapsedSliceDims := [0]
  operandBatchingDims := []
  startIndicesBatchingDims := []
  startIndexMap := [0]
  indexVectorDim := 2
  sliceSizes := ![1]
  wf := gather_S32000_S128x2048x1_S128x2048_n_0_n_n_0_2_1_wf
def scatter_S128x32000_S128x2048x2_S128x2048_n_01_01_2 : ScatterDims S128x32000 S128x2048x2 S128x2048 where
  updateWindowDims := []
  insertedWindowDims := [0, 1]
  scatterDimsToOperandDims := [0, 1]
  indexVectorDim := 2
  wf := scatter_S128x32000_S128x2048x2_S128x2048_n_01_01_2_wf
def dot_S128x32000_S32000x1024_S128x1024_1_0_0_1_n_n : DotDims S128x32000 S32000x1024 S128x1024 where
  lhsContracting := [1]
  rhsContracting := [0]
  lhsNonContracting := [0]
  rhsNonContracting := [1]
  lhsBatch := []
  rhsBatch := []
  wf := dot_S128x32000_S32000x1024_S128x1024_1_0_0_1_n_n_wf
def dot_S128x1024_S1024x2_S128x2_1_0_0_1_n_n : DotDims S128x1024 S1024x2 S128x2 where
  lhsContracting := [1]
  rhsContracting := [0]
  lhsNonContracting := [0]
  rhsNonContracting := [1]
  lhsBatch := []
  rhsBatch := []
  wf := dot_S128x1024_S1024x2_S128x2_1_0_0_1_n_n_wf

class Facts : Prop extends Facts₀ where

variable [Facts]
-- ==== Proof.KernelPieces.lean ====
/-
  What each kind of grid point leaves behind, as values of the body's pure payloads.

  The body keeps a [128, 1024] accumulator across the ten grid points.  The first point stores the zero block into it,
  reads that back and adds the product of its tile of pooled weights with its tile of the first weight matrix; every later
  point adds its own tile product to what the point before left; the last point moreover reads the finished accumulator
  back and stores the epilogue (bias, rectifier, second dense layer, log-softmax) into the output block.  Each store covers
  its whole buffer from offset zero and each load reads a whole buffer, so what a case leaves is exactly the stored
  payload at the loaded contents.
-/
import proofs.«179024_j86517821216492_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A point that is neither first nor last leaves in the accumulator what it held plus this tile's product. -/
theorem acc_middle (c : Dev nD) (i : grid0.Coords) (a1 : Memref sig .tc .vmem S128x3200 .bf16) (h1 : a1.IsWhole) (a2 : Memref sig .tc .vmem S3200x1024 .f32) (h2 : a2.IsWhole) (a3 : Memref sig .tc .vmem S1x1024 .f32) (h3 : a3.IsWhole) (a4 : Memref sig .tc .vmem S1024x2 .f32) (h4 : a4.IsWhole) (a5 : Memref sig .tc .vmem S1x2 .f32) (h5 : a5.IsWhole) (a6 : Memref sig .tc .vmem S128x2 .f32) (h6 : a6.IsWhole) (a7 : Memref sig .tc .vmem S128x1024 .f32) (h7 : a7.IsWhole) (hc0 : ¬cond0_0 i) (hc1 : ¬cond0_1 i) (x0 : Vec F S128x3200 .bf16) (x1 : Vec F S3200x1024 .f32) (x2 : Vec F S1x1024 .f32) (x3 : Vec F S1024x2 .f32) (x4 : Vec F S1x2 .f32) (xs0 : Vec F S128x1024 .f32) :
    sout0_B_0 c i a1 h1 a2 h2 a3 h3 a4 h4 a5 h5 a6 h6 a7 h7 hc0 hc1 x0 x1 x2 x3 x4 xs0 = k0_pay2 x1 xs0 x0 := by
  unfold sout0_B_0
  rw [View.read_writes_eq_canon _ _ _ (scover0_B_0 c i a1 h1 a2 h2 a3 h3 a4 h4 a5 h5 a6 h6 a7 h7 hc0 hc1 x0 x1 x2 x3 x4 xs0)]
  unfold kernelRun0_B
  dsimp only
  rw [View.canon_unit_zero hz]
  simp only [View.readAt_eq_ld, h1.read_unread, h2.read_unread, h7.read_unread, View.ld_unit_zero (S := S128x3200) hz,
    View.ld_unit_zero (S := S3200x1024) hz, View.ld_unit_zero (S := S128x1024) hz]

/-- The first point stores the zero block into the accumulator, reads it back, and leaves it plus tile 0's product. -/
theorem acc_first (c : Dev nD) (i : grid0.Coords) (a1 : Memref sig .tc .vmem S128x3200 .bf16) (h1 : a1.IsWhole) (a2 : Memref sig .tc .vmem S3200x1024 .f32) (h2 : a2.IsWhole) (a3 : Memref sig .tc .vmem S1x1024 .f32) (h3 : a3.IsWhole) (a4 : Memref sig .tc .vmem S1024x2 .f32) (h4 : a4.IsWhole) (a5 : Memref sig .tc .vmem S1x2 .f32) (h5 : a5.IsWhole) (a6 : Memref sig .tc .vmem S128x2 .f32) (h6 : a6.IsWhole) (a7 : Memref sig .tc .vmem S128x1024 .f32) (h7 : a7.IsWhole) (hc0 : cond0_0 i) (hc1 : ¬cond0_1 i) (x0 : Vec F S128x3200 .bf16) (x1 : Vec F S3200x1024 .f32) (x2 : Vec F S1x1024 .f32) (x3 : Vec F S1024x2 .f32) (x4 : Vec F S1x2 .f32) :
    sout0_A_0 c i a1 h1 a2 h2 a3 h3 a4 h4 a5 h5 a6 h6 a7 h7 hc0 hc1 x0 x1 x2 x3 x4 = k0_pay2 x1 (k0_pay1 (F := F)) x0 := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S128x1024) hz, View.readCov_unit_zero (S := S128x1024) _ hz]
  simp only [View.readAt_eq_ld, h1.read_unread, h2.read_unread, View.ld_unit_zero (S := S128x3200) hz,
    View.ld_unit_zero (S := S3200x1024) hz]

/-- The last point leaves in the accumulator what it held plus the last tile's product, -/
theorem acc_last (c : Dev nD) (i : grid0.Coords) (a1 : Memref sig .tc .vmem S128x3200 .bf16) (h1 : a1.IsWhole) (a2 : Memref sig .tc .vmem S3200x1024 .f32) (h2 : a2.IsWhole) (a3 : Memref sig .tc .vmem S1x1024 .f32) (h3 : a3.IsWhole) (a4 : Memref sig .tc .vmem S1024x2 .f32) (h4 : a4.IsWhole) (a5 : Memref sig .tc .vmem S1x2 .f32) (h5 : a5.IsWhole) (a6 : Memref sig .tc .vmem S128x2 .f32) (h6 : a6.IsWhole) (a7 : Memref sig .tc .vmem S128x1024 .f32) (h7 : a7.IsWhole) (hc0 : ¬cond0_0 i) (hc1 : cond0_1 i) (x0 : Vec F S128x3200 .bf16) (x1 : Vec F S3200x1024 .f32) (x2 : Vec F S1x1024 .f32) (x3 : Vec F S1024x2 .f32) (x4 : Vec F S1x2 .f32) (xs0 : Vec F S128x1024 .f32) :
    sout0_C_0 c i a1 h1 a2 h2 a3 h3 a4 h4 a5 h5 a6 h6 a7 h7 hc0 hc1 x0 x1 x2 x3 x4 xs0 = k0_pay2 x1 xs0 x0 := by
  unfold sout0_C_0
  rw [View.read_writes_eq_canon _ _ _ (scover0_C_0 c i a1 h1 a2 h2 a3 h3 a4 h4 a5 h5 a6 h6 a7 h7 hc0 hc1 x0 x1 x2 x3 x4 xs0)]
  unfold kernelRun0_C
  dsimp only
  sl_unfold_words
  rw [View.canon_unit_zero hz]
  simp only [View.readAt_eq_ld, h1.read_unread, h2.read_unread, h7.read_unread, View.ld_unit_zero (S := S128x3200) hz,
    View.ld_unit_zero (S := S3200x1024) hz, View.ld_unit_zero (S := S128x1024) hz]

/-- and stores into the output block the epilogue of that final accumulator, the bias rows and the second weights. -/
theorem out_last (c : Dev nD) (i : grid0.Coords) (a1 : Memref sig .tc .vmem S128x3200 .bf16) (h1 : a1.IsWhole) (a2 : Memref sig .tc .vmem S3200x1024 .f32) (h2 : a2.IsWhole) (a3 : Memref sig .tc .vmem S1x1024 .f32) (h3 : a3.IsWhole) (a4 : Memref sig .tc .vmem S1024x2 .f32) (h4 : a4.IsWhole) (a5 : Memref sig .tc .vmem S1x2 .f32) (h5 : a5.IsWhole) (a6 : Memref sig .tc .vmem S128x2 .f32) (h6 : a6.IsWhole) (a7 : Memref sig .tc .vmem S128x1024 .f32) (h7 : a7.IsWhole) (hc0 : ¬cond0_0 i) (hc1 : cond0_1 i) (x0 : Vec F S128x3200 .bf16) (x1 : Vec F S3200x1024 .f32) (x2 : Vec F S1x1024 .f32) (x3 : Vec F S1024x2 .f32) (x4 : Vec F S1x2 .f32) (xs0 : Vec F S128x1024 .f32) :
    out0_C_5 c i a1 h1 a2 h2 a3 h3 a4 h4 a5 h5 a6 h6 a7 h7 hc0 hc1 x0 x1 x2 x3 x4 xs0 = k0_pay3 (k0_pay2 x1 xs0 x0) x2 x3 x4 := by
  unfold out0_C_5
  rw [View.read_writes_eq_canon _ _ _ (cover0_C_5 c i a1 h1 a2 h2 a3 h3 a4 h4 a5 h5 a6 h6 a7 h7 hc0 hc1 x0 x1 x2 x3 x4 xs0)]
  unfold kernelRun0_C
  dsimp only
  sl_unfold_words
  rw [View.canon_unit_zero hz]
  rw [View.readCov_unit_zero (S := S128x1024) _ hz]
  simp only [View.readAt_eq_ld, h1.read_unread, h2.read_unread, h3.read_unread, h4.read_unread, h5.read_unread, h7.read_unread,
    View.ld_unit_zero (S := S128x3200) hz, View.ld_unit_zero (S := S3200x1024) hz, View.ld_unit_zero (S := S128x1024) hz,
    View.ld_unit_zero (S := S1x1024) hz, View.ld_unit_zero (S := S1024x2) hz, View.ld_unit_zero (S := S1x2) hz]

end Cert.KernelIdeal.Pieces

end
-- ==== Proof.KernelBlocks.lean ====
/-
  The arrays the kernel's region finds, and the windows' blocks read at an entry.

  Before the region the host operations compute the pooled token weights — a [128, 32000] array P, the same function of the
  token ids, the attention weights and the attention bias that the reference computes before its first dense layer — and
  lay the two bias vectors out as one-row matrices.  The region's windows then cut these arrays into blocks: at grid point
  t the pooled weights' block is columns 3200 t … 3200 t + 3199 of P, the first weight matrix's block is its rows
  3200 t … 3200 t + 3199, and the bias rows and the second weight matrix are taken whole at every point.
-/
import proofs.«179024_j86517821216492_1_alg».proof.Proof.Gen.KernelIdeal.Frame
import proofs.«179024_j86517821216492_1_alg».proof.Proof.Gen.ReferenceIdeal.Read
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo Idealize.ShloMosaic.ValueIdx

namespace Cert.KernelIdeal.Blocks

open Cert.KernelIdeal Cert.KernelIdeal.Gen

/-! ## What the region finds -/

section Found

variable (m : (ℓ : Loc nD τ sig) → Buf (Elt Ideal) ℓ)

set_option maxRecDepth 8192 in
set_option maxHeartbeats 32800000 in
/-- The pooled weights as the region finds them: the reference's own pooled array of the same arguments (the change of
    float format on the way into the kernel is the identity on extended reals). -/
theorem found_pooled (c : Dev nD) :
    (V m c main_v42 : S128x32000.Idx → EReal)
      = Cert.ReferenceIdeal.Read.val_main_v41 (F := Ideal) (m ((c : Thread nD τ).loc main_arg0))
          (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil, List.cons_append,
    List.nil_append]
  after_results_simp
  rfl

/-- The first bias as the region finds it: the vector of 1024 entries laid out as one row. -/
theorem found_bias1 (c : Dev nD) :
    (V m c main_v43 : S1x1024.Idx → EReal) = shapeCast S1x1024 (m ((c : Thread nD τ).loc main_arg4)) shapeCasts_S1024_S1x1024 := by
  dsimp only [Gen.V]
  simp only [Gen.hostOps0, Gen.hostOps0_1, Gen.hostOps0_2, List.flatten_cons, List.flatten_nil, List.append_nil, List.cons_append,
    List.nil_append]
  after_results
  rfl

/-- The second bias as the region finds it: the vector of 2 entries laid out as one row. -/
theorem found_bias2 (c : Dev nD) :
    (V m c main_v44 : S1x2.Idx → EReal) = shapeCast S1x2 (m ((c : Thread nD τ).loc main_arg6)) shapeCasts_S2_S1x2 := by
  dsimp only [Gen.V]
  simp only [Gen.hostOps0, Gen.hostOps0_1, Gen.hostOps0_2, List.flatten_cons, List.flatten_nil, List.append_nil, List.cons_append,
    List.nil_append]
  after_results
  rfl

end Found

/-! ## The blocks -/

variable {F : FTy → Type} [FloatOps F]
variable (m : (ℓ : Loc nD τ sig) → Buf (Elt F) ℓ)

/-- Where each window's block sits: the pooled weights' block moves along the columns, the first weights' along the rows,
    and the other three windows stay at the origin. -/
theorem block_index : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Column y of tile t is column 3200 t + y of the whole array. -/
theorem tile_lt (t : Fin cfg0.N) (y : Fin 3200) : t.val * 3200 + y.val < 32000 := by
  have h1 : t.val < 10 := lt_of_lt_of_eq t.isLt N_0
  have h2 := y.isLt
  omega

/-- The pooled weights' block at point t, entry (b, y): the array's entry (b, 3200 t + y). -/
theorem pooled_block_apply (c : Dev nD) (t : Fin cfg0.N) (b : Fin 128) (y : Fin 3200) :
    (iblk m c 0 t : Vec F S128x3200 .bf16) (ix2 b y) = V m c main_v42 (ix2 b ⟨t.val * 3200 + y.val, tile_lt t y⟩) := by
  obtain ⟨h0, h1, -⟩ := block_index t
  unfold iblk
  rw [View.read_apply]
  show V m c main_v42 _ = V m c main_v42 _
  congr 1
  funext a
  apply Fin.ext
  match a with
  | ⟨0, _⟩ => show win0_0.index t 0 * 128 + 1 * b.val = b.val; rw [h0]; omega
  | ⟨1, _⟩ => show win0_0.index t 1 * 3200 + 1 * y.val = t.val * 3200 + y.val; rw [h1]; omega

/-- The first weights' block at point t, entry (y, h): the matrix's entry (3200 t + y, h). -/
theorem weights1_block_apply (c : Dev nD) (t : Fin cfg0.N) (y : Fin 3200) (h : Fin 1024) :
    (iblk m c 1 t : Vec F S3200x1024 .f32) (ix2 y h) = V m c main_arg3 (ix2 ⟨t.val * 3200 + y.val, tile_lt t y⟩ h) := by
  obtain ⟨-, -, h0, h1, -⟩ := block_index t
  unfold iblk
  rw [View.read_apply]
  show V m c main_arg3 _ = V m c main_arg3 _
  congr 1
  funext a
  apply Fin.ext
  match a with
  | ⟨0, _⟩ => show win0_1.index t 0 * 3200 + 1 * y.val = t.val * 3200 + y.val; rw [h0]; omega
  | ⟨1, _⟩ => show win0_1.index t 1 * 1024 + 1 * h.val = h.val; rw [h1]; omega

/-- The first bias row's block is the whole row, at every point. -/
theorem bias1_block (c : Dev nD) (t : Fin cfg0.N) : (iblk m c 2 t : Vec F S1x1024 .f32) = V m c main_v43 := by
  obtain ⟨-, -, -, -, h0, h1, -⟩ := block_index t
  funext j
  unfold iblk
  rw [View.read_apply]
  show V m c main_v43 _ = V m c main_v43 _
  congr 1
  funext a
  apply Fin.ext
  match a with
  | ⟨0, _⟩ => show win0_2.index t 0 * 1 + 1 * (j 0).val = (j 0).val; rw [h0]; omega
  | ⟨1, _⟩ => show win0_2.index t 1 * 1024 + 1 * (j 1).val = (j 1).val; rw [h1]; omega

/-- The second weights' block is the whole matrix, at every point. -/
theorem weights2_block (c : Dev nD) (t : Fin cfg0.N) : (iblk m c 3 t : Vec F S1024x2 .f32) = V m c main_arg5 := by
  obtain ⟨-, -, -, -, -, -, h0, h1, -⟩ := block_index t
  funext j
  unfold iblk
  rw [View.read_apply]
  show V m c main_arg5 _ = V m c main_arg5 _
  congr 1
  funext a
  apply Fin.ext
  match a with
  | ⟨0, _⟩ => show win0_3.index t 0 * 1024 + 1 * (j 0).val = (j 0).val; rw [h0]; omega
  | ⟨1, _⟩ => show win0_3.index t 1 * 2 + 1 * (j 1).val = (j 1).val; rw [h1]; omega

/-- The second bias row's block is the whole row, at every point. -/
theorem bias2_block (c : Dev nD) (t : Fin cfg0.N) : (iblk m c 4 t : Vec F S1x2 .f32) = V m c main_v44 := by
  obtain ⟨-, -, -, -, -, -, -, -, h0, h1⟩ := block_index t
  funext j
  unfold iblk
  rw [View.read_apply]
  show V m c main_v44 _ = V m c main_v44 _
  congr 1
  funext a
  apply Fin.ext
  match a with
  | ⟨0, _⟩ => show win0_4.index t 0 * 1 + 1 * (j 0).val = (j 0).val; rw [h0]; omega
  | ⟨1, _⟩ => show win0_4.index t 1 * 2 + 1 * (j 1).val = (j 1).val; rw [h1]; omega

end Cert.KernelIdeal.Blocks

end
-- ==== Proof.LibBlockSum.lean ====
/-
  Sums over a range of T · B consecutive indices taken block by block, and running totals.

  The indices 0, …, T·B − 1 split into T consecutive blocks of B: index t·B + y is entry y of block t.  A sum over all of
  them is therefore the sum over the blocks of each block's sum.  A running total that starts from z plus the first
  term and adds one more term at each step is, after step t, z plus the sum of terms 0, …, t.  Together: a total
  accumulated block by block is z plus the sum over all T·B indices.
-/
import Mathlib

open scoped BigOperators

namespace Cert.Lib.BatchNorm

/-! ## The block decomposition of a range of T · B indices -/

/-- Entry y of block t has flat index t·B + y, below T·B. -/
theorem block_index_lt {T B : ℕ} (t : Fin T) (y : Fin B) : t.val * B + y.val < T * B :=
  calc t.val * B + y.val < t.val * B + B := Nat.add_lt_add_left y.isLt _
    _ = (t.val + 1) * B := by ring
    _ ≤ T * B := Nat.mul_le_mul_right _ t.isLt

/-- A sum over T·B indices is the sum over the T blocks of the sum over each block's B entries. -/
theorem sum_fin_mul {M : Type*} [AddCommMonoid M] (T B : ℕ) (f : Fin (T * B) → M) :
    ∑ i : Fin (T * B), f i = ∑ t : Fin T, ∑ y : Fin B, f ⟨t.val * B + y.val, block_index_lt t y⟩ := by
  rw [← Equiv.sum_comp (finProdFinEquiv (m := T) (n := B)) f, Fintype.sum_prod_type]
  refine Finset.sum_congr rfl fun t _ => Finset.sum_congr rfl fun y _ => ?_
  congr 1
  refine Fin.ext ?_
  simp only [finProdFinEquiv_apply_val]
  ring

/-- The same for a function of the flat index as a natural number, with the blocks and entries counted by ranges. -/
theorem sum_fin_mul_nat {M : Type*} [AddCommMonoid M] (T B : ℕ) (F : ℕ → M) :
    ∑ i : Fin (T * B), F i.val = ∑ t ∈ Finset.range T, ∑ y ∈ Finset.range B, F (t * B + y) := by
  rw [sum_fin_mul T B fun i => F i.val, Finset.sum_range]
  refine Finset.sum_congr rfl fun t _ => ?_
  rw [Finset.sum_range]

/-! ## Running totals -/

/-- A running total a, with a 0 = z + g 0 and a (t + 1) = a t + g (t + 1), is at step t the start z plus the sum of
    g 0, …, g t. -/
theorem running_total {M : Type*} [AddCommMonoid M] (a g : ℕ → M) (z : M) (h0 : a 0 = z + g 0)
    (hs : ∀ t, a (t + 1) = a t + g (t + 1)) (t : ℕ) : a t = z + ∑ s ∈ Finset.range (t + 1), g s := by
  induction t with
  | zero => rw [h0, Finset.sum_range_one]
  | succ t ih => rw [hs t, ih, Finset.sum_range_succ _ (t + 1), add_assoc]

/-- The same when the recurrence is known only up to a last step T − 1: for every t below T. -/
theorem running_total_below {M : Type*} [AddCommMonoid M] (T : ℕ) (a g : ℕ → M) (z : M) (h0 : a 0 = z + g 0)
    (hs : ∀ t, t + 1 < T → a (t + 1) = a t + g (t + 1)) (t : ℕ) (ht : t < T) :
    a t = z + ∑ s ∈ Finset.range (t + 1), g s := by
  induction t with
  | zero => rw [h0, Finset.sum_range_one]
  | succ t ih => rw [hs t ht, ih (Nat.lt_of_succ_lt ht), Finset.sum_range_succ _ (t + 1), add_assoc]

/-- A sum of g 0, …, g (T − 1) counted by a range is the sum over the T indices below T. -/
theorem sum_range_eq_sum_fin {M : Type*} [AddCommMonoid M] (T : ℕ) (g : ℕ → M) :
    ∑ s ∈ Finset.range T, g s = ∑ t : Fin T, g t.val :=
  Finset.sum_range g

/-- A total accumulated block by block — it starts from z plus block 0's sum and adds block t + 1's sum at step
    t + 1 — is, after the last of T ≥ 1 blocks of B entries, z plus the sum over all T·B flat indices. -/
theorem running_total_blocks {M : Type*} [AddCommMonoid M] (T B : ℕ) (hT : 0 < T) (a : ℕ → M) (F : ℕ → M) (z : M)
    (h0 : a 0 = z + ∑ y ∈ Finset.range B, F (0 * B + y))
    (hs : ∀ t, t + 1 < T → a (t + 1) = a t + ∑ y ∈ Finset.range B, F ((t + 1) * B + y)) :
    a (T - 1) = z + ∑ i : Fin (T * B), F i.val := by
  rw [running_total_below T a (fun t => ∑ y ∈ Finset.range B, F (t * B + y)) z h0 hs (T - 1) (by omega),
    sum_fin_mul_nat, Nat.sub_add_cancel hT]

/-! ## Running totals indexed by the steps 0, …, T − 1 themselves -/

/-- A running total a over the T steps, with a 0 = z + g 0 and a (t + 1) = a t + g (t + 1), is at the last step the
    start z plus the sum of all T terms. -/
theorem running_total_fin_last {M : Type*} [AddCommMonoid M] {T : ℕ} (hT : 0 < T) (a g : Fin T → M) (z : M)
    (h0 : a ⟨0, hT⟩ = z + g ⟨0, hT⟩)
    (hs : ∀ (t : ℕ) (h : t + 1 < T), a ⟨t + 1, h⟩ = a ⟨t, Nat.lt_of_succ_lt h⟩ + g ⟨t + 1, h⟩) :
    a ⟨T - 1, Nat.sub_lt hT Nat.one_pos⟩ = z + ∑ s : Fin T, g s := by
  have key := running_total_below T (fun t => if h : t < T then a ⟨t, h⟩ else 0)
    (fun t => if h : t < T then g ⟨t, h⟩ else 0) z
    (by simp only [dif_pos hT]; exact h0)
    (fun t h => by simp only [dif_pos h, dif_pos (Nat.lt_of_succ_lt h)]; exact hs t h)
    (T - 1) (Nat.sub_lt hT Nat.one_pos)
  simp only [dif_pos (Nat.sub_lt hT Nat.one_pos), Nat.sub_add_cancel hT] at key
  rw [key, Finset.sum_range]
  congr 1
  exact Finset.sum_congr rfl fun s _ => by rw [dif_pos s.isLt]

/-- A total accumulated block by block over T ≥ 1 blocks of B entries — it starts from z plus block 0's sum and
    adds block t + 1's sum at step t + 1 — is at the last step z plus the sum over all T·B flat indices. -/
theorem running_total_blocks_fin {M : Type*} [AddCommMonoid M] (T B : ℕ) (hT : 0 < T) (a : Fin T → M)
    (f : Fin (T * B) → M) (z : M)
    (h0 : a ⟨0, hT⟩ = z + ∑ y : Fin B, f ⟨(⟨0, hT⟩ : Fin T).val * B + y.val, block_index_lt ⟨0, hT⟩ y⟩)
    (hs : ∀ (t : ℕ) (h : t + 1 < T), a ⟨t + 1, h⟩ = a ⟨t, Nat.lt_of_succ_lt h⟩
        + ∑ y : Fin B, f ⟨(⟨t + 1, h⟩ : Fin T).val * B + y.val, block_index_lt ⟨t + 1, h⟩ y⟩) :
    a ⟨T - 1, Nat.sub_lt hT Nat.one_pos⟩ = z + ∑ i : Fin (T * B), f i := by
  rw [sum_fin_mul]
  exact running_total_fin_last hT a (fun t => ∑ y : Fin B, f ⟨t.val * B + y.val, block_index_lt t y⟩) z h0 hs

/-! ## The instance 50000 = 10 · 5000 -/

/-- A sum over 50000 indices is the sum over 10 blocks of the sum over each block's 5000 entries. -/
theorem sum_fin_50000 {M : Type*} [AddCommMonoid M] (f : Fin 50000 → M) :
    ∑ i : Fin 50000, f i
      = ∑ t : Fin 10, ∑ y : Fin 5000, f ⟨t.val * 5000 + y.val, by have := t.isLt; have := y.isLt; omega⟩ :=
  sum_fin_mul 10 5000 f

/-- The same for a function of the flat index as a natural number. -/
theorem sum_fin_50000_nat {M : Type*} [AddCommMonoid M] (F : ℕ → M) :
    ∑ i : Fin 50000, F i.val = ∑ t ∈ Finset.range 10, ∑ y ∈ Finset.range 5000, F (t * 5000 + y) :=
  sum_fin_mul_nat 10 5000 F

/-- A total accumulated over 10 blocks of 5000 is z plus the sum over all 50000 flat indices. -/
theorem running_total_50000 {M : Type*} [AddCommMonoid M] (a : ℕ → M) (F : ℕ → M) (z : M)
    (h0 : a 0 = z + ∑ y ∈ Finset.range 5000, F (0 * 5000 + y))
    (hs : ∀ t, t + 1 < 10 → a (t + 1) = a t + ∑ y ∈ Finset.range 5000, F ((t + 1) * 5000 + y)) :
    a 9 = z + ∑ i : Fin 50000, F i.val :=
  running_total_blocks 10 5000 (by norm_num) a F z h0 hs

/-- A total accumulated over the 10 steps, block t being the 5000 entries from 5000 t on, is at step 9 the start z
    plus the sum over all 50000 entries. -/
theorem running_total_50000_fin {M : Type*} [AddCommMonoid M] (a : Fin 10 → M) (f : Fin 50000 → M) (z : M)
    (h0 : a 0 = z + ∑ y : Fin 5000, f ⟨0 * 5000 + y.val, by have := y.isLt; omega⟩)
    (hs : ∀ (t : ℕ) (h : t + 1 < 10), a ⟨t + 1, h⟩ = a ⟨t, Nat.lt_of_succ_lt h⟩
        + ∑ y : Fin 5000, f ⟨(t + 1) * 5000 + y.val, by have := y.isLt; omega⟩) :
    a 9 = z + ∑ i : Fin 50000, f i :=
  running_total_blocks_fin 10 5000 (by norm_num) a f z h0 hs

end Cert.Lib.BatchNorm
-- ==== Proof.LibDenseRows.lean ====
/-
  A dense layer read one row at a time, on the extended reals.

  A dense layer takes a matrix x (m rows of k entries), a weight matrix w (k × n) and a bias b (one row of n entries)
  to the matrix whose entry (p, q) is  (Σ_c x[p, c] · w[c, q]) + b[0, q].  Entry (p, q) depends on x only through its
  row p.  A kernel and a host program spell the layer differently — the kernel as a matrix unit's product accumulated
  into a zero splat plus the bias row broadcast down the rows, the host as a dot_general plus a broadcast along axis 0 —
  and cut the rows differently (a kernel sees a block of rows, the host all of them); read at an entry both are the
  same function of the row, whatever the number of rows.  The rectifier max(·, 0) is likewise read entry by entry.
  Nothing here uses more of real arithmetic than 0 + x = x, so everything holds at the infinities too.
-/
import Idealize.ShloMosaic.Lib.StackMember
import Idealize.ShloMosaic.Lib.KernelVsHost
import Idealize.ShloMosaic.Lib.ValueLayout
import Idealize.ShloMosaic.Lib.ValueIdx
import Idealize.ShloMosaic.PureOps.Ideal.Laws

noncomputable section

namespace Cert.LibDenseRows

open Idealize.ShloMosaic Idealize.ShloMosaic.ValueIdx

/-- One row through a dense layer: entry q of  r · w + b. -/
def denseRow {k n : ℕ} (r : Fin k → EReal) (w : (⟨2, ![k, n]⟩ : Shape).Idx → EReal)
    (b : (⟨2, ![1, n]⟩ : Shape).Idx → EReal) (q : Fin n) : EReal :=
  (∑ c : Fin k, r c * w (ix2 c q)) + b (ix2 (0 : Fin 1) q)

/-- The rectifier on one extended real, against the f32 zero word. -/
def relu (x : EReal) : EReal := max x (Ideal.ofBits .f32 0x00000000#32)

/-- One row through two rectified dense layers:  relu(relu(r · w1 + b1) · w2 + b2)  at entry q. -/
def mlp2Row {k h n : ℕ} (r : Fin k → EReal) (w1 : (⟨2, ![k, h]⟩ : Shape).Idx → EReal) (b1 : (⟨2, ![1, h]⟩ : Shape).Idx → EReal)
    (w2 : (⟨2, ![h, n]⟩ : Shape).Idx → EReal) (b2 : (⟨2, ![1, n]⟩ : Shape).Idx → EReal) (q : Fin n) : EReal :=
  relu (denseRow (fun c => relu (denseRow r w1 b1 c)) w2 b2 q)

/-- One row through two rectified dense layers and a last, unrectified one:
    relu(relu(r · w0 + b0) · w1 + b1) · w2 + b2  at entry q. -/
def mlp3Row {k h g n : ℕ} (r : Fin k → EReal) (w0 : (⟨2, ![k, h]⟩ : Shape).Idx → EReal) (b0 : (⟨2, ![1, h]⟩ : Shape).Idx → EReal)
    (w1 : (⟨2, ![h, g]⟩ : Shape).Idx → EReal) (b1 : (⟨2, ![1, g]⟩ : Shape).Idx → EReal)
    (w2 : (⟨2, ![g, n]⟩ : Shape).Idx → EReal) (b2 : (⟨2, ![1, n]⟩ : Shape).Idx → EReal) (q : Fin n) : EReal :=
  denseRow (fun d => relu (denseRow (fun c => relu (denseRow r w0 b0 c)) w1 b1 d)) w2 b2 q

/-- The dense layer of a whole matrix: entry (i, j) is row i through the layer, at j. -/
def denseArr {m k n : ℕ} (x : (⟨2, ![m, k]⟩ : Shape).Idx → EReal) (w : (⟨2, ![k, n]⟩ : Shape).Idx → EReal)
    (b : (⟨2, ![1, n]⟩ : Shape).Idx → EReal) : (⟨2, ![m, n]⟩ : Shape).Idx → EReal :=
  fun i => denseRow (fun c => x (ix2 (i 0 : Fin m) c)) w b (i 1 : Fin n)

/-- Two rectified dense layers of a whole matrix, row by row. -/
def mlp2Arr {m k h n : ℕ} (x : (⟨2, ![m, k]⟩ : Shape).Idx → EReal) (w1 : (⟨2, ![k, h]⟩ : Shape).Idx → EReal)
    (b1 : (⟨2, ![1, h]⟩ : Shape).Idx → EReal) (w2 : (⟨2, ![h, n]⟩ : Shape).Idx → EReal) (b2 : (⟨2, ![1, n]⟩ : Shape).Idx → EReal) :
    (⟨2, ![m, n]⟩ : Shape).Idx → EReal :=
  fun i => mlp2Row (fun c => x (ix2 (i 0 : Fin m) c)) w1 b1 w2 b2 (i 1 : Fin n)

/-- Two rectified dense layers and a last, unrectified one of a whole matrix, row by row. -/
def mlp3Arr {m k h g n : ℕ} (x : (⟨2, ![m, k]⟩ : Shape).Idx → EReal) (w0 : (⟨2, ![k, h]⟩ : Shape).Idx → EReal)
    (b0 : (⟨2, ![1, h]⟩ : Shape).Idx → EReal) (w1 : (⟨2, ![h, g]⟩ : Shape).Idx → EReal) (b1 : (⟨2, ![1, g]⟩ : Shape).Idx → EReal)
    (w2 : (⟨2, ![g, n]⟩ : Shape).Idx → EReal) (b2 : (⟨2, ![1, n]⟩ : Shape).Idx → EReal) : (⟨2, ![m, n]⟩ : Shape).Idx → EReal :=
  fun i => mlp3Row (fun c => x (ix2 (i 0 : Fin m) c)) w0 b0 w1 b1 w2 b2 (i 1 : Fin n)

/-- The host's dense layer at entry (p, q): the layer applied to row p. -/
theorem host_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1])
    (p : Fin m) (q : Fin n) :
    addf (Host.dotGeneral (DotDims.plain m k n) none x w) (broadcastInDim ⟨2, ![m, n]⟩ ![0, 1] hbc b) (ix2 p q)
      = denseRow (fun c => x (ix2 p c)) w b q := by
  rw [addf_apply, StackMember.dotGeneral_plain_apply, broadcastInDim_oneRow_apply]
  rfl

/-- The kernel's dense layer on a block of rows at entry (p, q): the layer applied to row p of the block. -/
theorem kernel_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hb : (⟨2, ![1, n]⟩ : Shape).Broadcasts ⟨2, ![m, n]⟩) (p : Fin m) (q : Fin n) :
    addf (matmul (DotDims.plain m k n) none x w (constant ⟨2, ![m, n]⟩ .f32 0x00000000#32))
        (broadcastTo ⟨2, ![m, n]⟩ b hb) (ix2 p q)
      = denseRow (fun c => x (ix2 p c)) w b q := by
  rw [addf_apply, matmul_zero_eq_dotGeneral, StackMember.dotGeneral_plain_apply, broadcastTo_1b_ab_apply]
  rfl

/-- The kernel's rectifier (a maximum with the splat of the zero word) at an entry. -/
theorem kernel_relu_apply {s : Shape} (v : FVec Ideal s .f32) (i : s.Idx) :
    maximumf v (broadcast s (Scalar.ofBits (F := Ideal) .f32 0x00000000#32)) i = relu (v i) := rfl

/-- The host's rectifier (a maximum with the broadcast of the zero constant) at an entry. -/
theorem host_relu_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = relu (v i) := by
  rw [maximumf_apply, broadcastInDim_apply ![] h _ i ix0 (fun a => a.elim0)]
  rfl

/-- A vector of n entries as a one-row matrix: the reshape is the broadcast along axis 1. -/
theorem oneRow_cast_eq_bcast {α : Type} {n : ℕ} (b : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ b hc = broadcastInDim ⟨2, ![1, n]⟩ ![1] hb b := by
  funext i
  have e1 := shapeCast_apply b hc i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e2 := broadcastInDim_apply ![1] hb b i (ix1 (i 1 : Fin n)) (by
    intro a
    match a with
    | ⟨0, _⟩ =>
      show (i 1).val = if n = 1 then 0 else (i 1).val
      split
      · have := (i 1).isLt; have e : (i 1).val < n := this; omega
      · rfl)
  exact e1.trans e2.symm

/-- A one-row matrix flattened to a vector and broadcast back along axis 1 is the one-row matrix. -/
theorem bcast_cast_oneRow {α : Type} {n : ℕ} (r : (⟨2, ![1, n]⟩ : Shape).Idx → α)
    (hc : (⟨2, ![1, n]⟩ : Shape).ShapeCasts ⟨1, ![n]⟩) (hb : (⟨1, ![n]⟩ : Shape).BroadcastsInDim ⟨2, ![1, n]⟩ ![1]) :
    broadcastInDim ⟨2, ![1, n]⟩ ![1] hb (shapeCast ⟨1, ![n]⟩ r hc) = r := by
  funext i
  have e2 := broadcastInDim_apply ![1] hb (shapeCast ⟨1, ![n]⟩ r hc) i (ix1 (i 1 : Fin n)) (by
    intro a
    match a with
    | ⟨0, _⟩ =>
      show (i 1).val = if n = 1 then 0 else (i 1).val
      split
      · have := (i 1).isLt; have e : (i 1).val < n := this; omega
      · rfl)
  have e1 := shapeCast_apply r hc (ix1 (i 1 : Fin n)) i (by
    rw [Shape.rowMajor_val_two, Shape.rowMajor_val_one]
    have h0 : (i 0).val < 1 := (i 0).isLt
    show (i 0).val * n + (i 1).val = (i 1).val
    have : (i 0).val = 0 := by omega
    rw [this]; omega)
  exact e2.trans e1

/-- The host's dense layer of a whole matrix is `denseArr`. -/
theorem host_dense_eq {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1]) :
    addf (Host.dotGeneral (DotDims.plain m k n) none x w) (broadcastInDim ⟨2, ![m, n]⟩ ![0, 1] hbc b) = denseArr x w b := by
  funext i
  obtain ⟨p, q, rfl⟩ : ∃ (p : Fin m) (q : Fin n), i = ix2 p q := ⟨i 0, i 1, eq_ix2 i⟩
  exact host_dense_apply x w b hbc p q

/-- The host's rectified dense layer of a whole matrix, entry by entry. -/
theorem host_relu_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1])
    (h0 : (⟨0, ![]⟩ : Shape).BroadcastsInDim ⟨2, ![m, n]⟩ ![]) (p : Fin m) (q : Fin n) :
    maximumf (addf (Host.dotGeneral (DotDims.plain m k n) none x w) (broadcastInDim ⟨2, ![m, n]⟩ ![0, 1] hbc b))
        (broadcastInDim ⟨2, ![m, n]⟩ ![] h0 (constant (F := Ideal) ⟨0, ![]⟩ .f32 0x00000000#32)) (ix2 p q)
      = relu (denseRow (fun c => x (ix2 p c)) w b q) :=
  (host_relu_apply _ h0 _).trans (congrArg relu (host_dense_apply x w b hbc p q))

end Cert.LibDenseRows

end
-- ==== Proof.LibUnitColumn.lean ====
/-
  A vector laid out as a one-column matrix, and a one-column matrix spread along the rows.

  A length-`a` vector becomes an `[a, 1]` matrix either by a reshape or by a broadcast that keeps axis 0; either
  way the entry at `(i, u)` is the vector's entry `i`. Spreading an `[a, 1]` matrix to `[a, b]` repeats the
  column: the entry at `(i, j)` is the column's entry `(i, 0)`. Hence the two spellings of "the vector as a column,
  repeated along each row" are one matrix.
-/
import Idealize.ShloMosaic.Lib.Pipeline.Value
import Idealize.ShloMosaic.Lib.ValueIdx

namespace Cert.LibUnitColumn

open Idealize.ShloMosaic Idealize.ShloMosaic.ValueIdx

variable {α : Type}

/-- An `[a]` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` vector broadcast to `[a, 1]` along axis 0 reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x _ _ (fun d => by
    match d with
    | ⟨0, _⟩ =>
      show i.val = if a = 1 then 0 else i.val
      split_ifs with e
      · have := i.isLt; omega
      · rfl)

/-- An `[a, 1]` column spread to `[a, b]` reads, at `(i, j)`, the column at `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i 0) :=
  broadcastInDim_apply ![0, 1] h x _ _ (fun d => by
    match d with
    | ⟨0, _⟩ =>
      show i.val = if a = 1 then 0 else i.val
      split_ifs with e
      · have := i.isLt; omega
      · rfl
    | ⟨1, _⟩ =>
      show (0 : ℕ) = if (1 : ℕ) = 1 then 0 else j.val
      rw [if_pos rfl])

/-- The vector as a column repeated along each row, by a reshape or by a broadcast: one matrix. -/
theorem spread_cast_eq_spread_bcast {a b : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0])
    (h2 : (⟨2, ![a, 1]⟩ : Shape).BroadcastsInDim ⟨2, ![a, b]⟩ ![0, 1]) :
    broadcastInDim ⟨2, ![a, b]⟩ ![0, 1] h2 (shapeCast ⟨2, ![a, 1]⟩ x hc)
      = broadcastInDim ⟨2, ![a, b]⟩ ![0, 1] h2 (broadcastInDim ⟨2, ![a, 1]⟩ ![0] hb x) := by
  funext i
  obtain ⟨p, q, rfl⟩ : ∃ (p : Fin a) (q : Fin b), i = ix2 p q := ⟨i 0, i 1, eq_ix2 i⟩
  rw [broadcastInDim_a1_ab_apply, broadcastInDim_a1_ab_apply, shapeCast_a_a1_apply, broadcastInDim_a_a1_apply]

end Cert.LibUnitColumn
-- ==== Proof.LibSpreadColumn.lean ====
/-
  A one-column matrix spread along the rows by a vector broadcast.

  Broadcasting an [a, 1] array to [a, b] repeats its one column: the entry at (p, c) is the column's entry (p, 0).
-/
import Idealize.ShloMosaic.Lib.Pipeline.Value
import Idealize.ShloMosaic.Lib.ValueIdx

namespace Cert.LibSpreadColumn

open Idealize.ShloMosaic Idealize.ShloMosaic.ValueIdx

variable {α : Type}

/-- An [a, 1] array broadcast to [a, b] reads, at (p, c), the operand's column entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibSpreadColumn
-- ==== Proof.LogSoftmaxRows.lean ====
/-
  The log-softmax of each row of a [128, 2] array of logits, on the extended reals.

  For a row l of two logits let M = max(-∞, max(-∞, l 0, l 1)) and s k = l k - M.  The log-softmax of the row at entry j
  is  s j - log (s-exponentials summed) = s j - log (exp (s 0) + exp (s 1)).  A kernel and a host program spell this
  differently — the kernel by lane reductions, a cast of the 128 row statistics to a [128, 1] column and a vector
  broadcast of that column; the host by reduces, a broadcast along axis 0 and a broadcast of the column — but read at
  an entry (b, j) both are this function of row b.  The host's sum starts from the f32 zero word, which is the real 0.
  Nothing here needs the logits to be finite.
-/
import Idealize.ShloMosaic.Lib.ValueLayout
import Idealize.ShloMosaic.Lib.ValueIdx
import Idealize.ShloMosaic.Lib.Pipeline.Value
import Idealize.ShloMosaic.PureOps.Ideal.Laws
import proofs.«179024_j86517821216492_1_alg».proof.Proof.LibUnitColumn
import proofs.«179024_j86517821216492_1_alg».proof.Proof.LibSpreadColumn

noncomputable section

namespace Cert.LogSoftmaxRows

open Idealize.ShloMosaic Idealize.ShloMosaic.ValueIdx

/-- The logits' shape, one statistic per row, the statistics as a column, and a scalar. -/
abbrev L : Shape := ⟨2, ![128, 2]⟩
abbrev R : Shape := ⟨1, ![128]⟩
abbrev C : Shape := ⟨2, ![128, 1]⟩
abbrev S0 : Shape := ⟨0, ![]⟩

/-- A row's maximum, taken from -∞ and then once more against -∞ (as both programs take it). -/
def rowMax (l : Fin 2 → EReal) : EReal :=
  max (Ideal.ofBits .f32 0xFF800000#32) ((Finset.univ : Finset (Fin 2)).fold max (Ideal.ofBits .f32 0xFF800000#32) l)

/-- The log-softmax of one row at entry j. -/
def logSoftmaxRow (l : Fin 2 → EReal) (j : Fin 2) : EReal :=
  (l j - rowMax l) - Ideal.log (∑ k : Fin 2, Ideal.exp (l k - rowMax l))

/-- Entry k of row b, by inserting the lane coordinate into the row's index. -/
theorem lift_row (hr : L.Reduces [1] R) (b : Fin 128) (k : Fin 2) : hr.lift (ix1 b) k = ix2 b k :=
  funext fun a => Fin.ext (by match a with | ⟨0, _⟩ => rfl | ⟨1, _⟩ => rfl)

/-! ## The kernel's spelling -/

/-- The kernel's row maximum: a lane maximum from -∞, then a maximum with the splat of -∞. -/
theorem kernel_rowMax_apply (l : FVec Ideal L .f32) (hr : L.Reduces [1] R) (hφ : FKind.Formats .f32)
    (hmax : (0xFF800000#32 : BitVec 32) = FKind.maximumf.neutral .f32 hφ) (b : Fin 128) :
    maximumf (broadcast R (Scalar.ofBits (F := Ideal) .f32 0xFF800000#32))
        (multiReduction .maximumf [1] R l 0xFF800000#32 hr hφ hmax) (ix1 b)
      = rowMax (fun k => l (ix2 b k)) := by
  rw [maximumf_apply, broadcast_apply, Ideal.multiReduction_maximumf_single]
  have e : (l ∘ hr.lift (ix1 b)) = fun k : Fin 2 => l (ix2 b k) := funext fun k => congrArg l (lift_row hr b k)
  rw [e]
  rfl

/-- The kernel's row sum: a lane sum. -/
theorem kernel_rowSum_apply (e : FVec Ideal L .f32) (hr : L.Reduces [1] R) (hφ : FKind.Formats .f32)
    (hadd : (0x00000000#32 : BitVec 32) = FKind.add.neutral .f32 hφ) (b : Fin 128) :
    multiReduction .add [1] R e 0x00000000#32 hr hφ hadd (ix1 b) = ∑ k : Fin 2, e (ix2 b k) := by
  rw [Ideal.multiReduction_add_single]
  exact Finset.sum_congr rfl fun k _ => congrArg e (lift_row hr b k)

/-- A row statistic cast to a column and spread over the row's entries reads the statistic. -/
theorem kernel_keep_apply (x : FVec Ideal R .f32) (hc : R.ShapeCasts C) (hb : C.Broadcasts L) (b : Fin 128) (j : Fin 2) :
    broadcastTo L (shapeCast C x hc) hb (ix2 b j) = x (ix1 b) :=
  (Cert.LibSpreadColumn.broadcastTo_a1_ab_apply (a := 128) (b := 2) (shapeCast C x hc) hb b j).trans
    (Cert.LibUnitColumn.shapeCast_a_a1_apply (a := 128) x hc b 0)

/-- The kernel's log-softmax of an array of logits. -/
def kernelLogSoftmax (l : FVec Ideal L .f32) (hr : L.Reduces [1] R) (hφ : FKind.Formats .f32)
    (hmax : (0xFF800000#32 : BitVec 32) = FKind.maximumf.neutral .f32 hφ)
    (hadd : (0x00000000#32 : BitVec 32) = FKind.add.neutral .f32 hφ)
    (hc : R.ShapeCasts C) (hb : C.Broadcasts L) : FVec Ideal L .f32 :=
  subf (subf l (broadcastTo L (shapeCast C (maximumf (broadcast R (Scalar.ofBits (F := Ideal) .f32 0xFF800000#32))
      (multiReduction .maximumf [1] R l 0xFF800000#32 hr hφ hmax)) hc) hb))
    (broadcastTo L (log (shapeCast C (multiReduction .add [1] R (exp (subf l (broadcastTo L (shapeCast C
      (maximumf (broadcast R (Scalar.ofBits (F := Ideal) .f32 0xFF800000#32))
        (multiReduction .maximumf [1] R l 0xFF800000#32 hr hφ hmax)) hc) hb))) 0x00000000#32 hr hφ hadd) hc)) hb)

/-- Read at (b, j) it is the log-softmax of row b. -/
theorem kernelLogSoftmax_apply (l : FVec Ideal L .f32) (hr : L.Reduces [1] R) (hφ : FKind.Formats .f32)
    (hmax : (0xFF800000#32 : BitVec 32) = FKind.maximumf.neutral .f32 hφ)
    (hadd : (0x00000000#32 : BitVec 32) = FKind.add.neutral .f32 hφ)
    (hc : R.ShapeCasts C) (hb : C.Broadcasts L) (b : Fin 128) (j : Fin 2) :
    kernelLogSoftmax l hr hφ hmax hadd hc hb (ix2 b j) = logSoftmaxRow (fun k => l (ix2 b k)) j := by
  have hs : ∀ k : Fin 2, subf l (broadcastTo L (shapeCast C (maximumf (broadcast R (Scalar.ofBits (F := Ideal) .f32 0xFF800000#32))
      (multiReduction .maximumf [1] R l 0xFF800000#32 hr hφ hmax)) hc) hb) (ix2 b k)
      = l (ix2 b k) - rowMax (fun k => l (ix2 b k)) := fun k => by
    rw [subf_apply, kernel_keep_apply, kernel_rowMax_apply]
  unfold kernelLogSoftmax logSoftmaxRow
  rw [subf_apply, hs j]
  congr 1
  refine (Cert.LibSpreadColumn.broadcastTo_a1_ab_apply (a := 128) (b := 2) _ hb b j).trans ?_
  show Ideal.log (shapeCast C _ hc (ix2 b (0 : Fin 1))) = _
  rw [Cert.LibUnitColumn.shapeCast_a_a1_apply (a := 128) _ hc b 0, kernel_rowSum_apply]
  congr 1
  exact Finset.sum_congr rfl fun k _ => congrArg Ideal.exp (hs k)

/-! ## The host's spelling -/

/-- The host's row maximum: a reduce by maximum from -∞, then a maximum with the broadcast of -∞. -/
theorem host_rowMax_apply (l : FVec Ideal L .f32) (hr' : L.ReducesTo [1] R) (hr : L.Reduces [1] R) (hu : 0 < S0.numel)
    (hb0 : S0.BroadcastsInDim R ![]) (b : Fin 128) :
    maximumf (broadcastInDim R ![] hb0 (constant (F := Ideal) S0 .f32 0xFF800000#32))
        (Host.reduce FloatOps.maximumf l (constant (F := Ideal) S0 .f32 0xFF800000#32) hr' hu) (ix1 b)
      = rowMax (fun k => l (ix2 b k)) := by
  rw [maximumf_apply, broadcastInDim_apply ![] hb0 _ (ix1 b) ix0 (fun a => a.elim0), Host.reduce_eq_fold_single _ l _ hr' hr hu]
  have e : (l ∘ hr.lift (ix1 b)) = fun k : Fin 2 => l (ix2 b k) := funext fun k => congrArg l (lift_row hr b k)
  rw [e]
  rfl

/-- The host's row sum: a reduce by addition from the zero word, which is the real 0. -/
theorem host_rowSum_apply (e : FVec Ideal L .f32) (hr' : L.ReducesTo [1] R) (hr : L.Reduces [1] R) (hu : 0 < S0.numel)
    (b : Fin 128) :
    Host.reduceAdd e (constant (F := Ideal) S0 .f32 0x00000000#32) hr' hu (ix1 b) = ∑ k : Fin 2, e (ix2 b k) := by
  simp only [Host.reduceAdd, Ideal.hostReduceAdd_def]
  rw [Ideal.hostReduceAdd_single hr' hr]
  show Ideal.ofBits .f32 0x00000000#32 + _ = _
  rw [Ideal.ofBits_zero_f32, zero_add]
  exact Finset.sum_congr rfl fun k _ => congrArg e (lift_row hr b k)

/-- A row statistic broadcast to a column and then over the row's entries reads the statistic. -/
theorem host_keep_apply (x : FVec Ideal R .f32) (h1 : R.BroadcastsInDim C ![0]) (h2 : C.BroadcastsInDim L ![0, 1])
    (b : Fin 128) (j : Fin 2) :
    broadcastInDim L ![0, 1] h2 (broadcastInDim C ![0] h1 x) (ix2 b j) = x (ix1 b) :=
  (Cert.LibUnitColumn.broadcastInDim_a1_ab_apply (a := 128) (b := 2) (broadcastInDim C ![0] h1 x) h2 b j).trans
    (Cert.LibUnitColumn.broadcastInDim_a_a1_apply (a := 128) x h1 b 0)

/-- The logarithm of a row statistic, taken on the column and then spread over the row's entries. -/
theorem host_keep_log_apply (x : FVec Ideal R .f32) (h1 : R.BroadcastsInDim C ![0]) (h2 : C.BroadcastsInDim L ![0, 1])
    (b : Fin 128) (j : Fin 2) :
    broadcastInDim L ![0, 1] h2 (Host.log (broadcastInDim C ![0] h1 x)) (ix2 b j) = Ideal.log (x (ix1 b)) :=
  (Cert.LibUnitColumn.broadcastInDim_a1_ab_apply (a := 128) (b := 2) (Host.log (broadcastInDim C ![0] h1 x)) h2 b j).trans
    (congrArg Ideal.log (Cert.LibUnitColumn.broadcastInDim_a_a1_apply (a := 128) x h1 b 0))

/-- The host's log-softmax of an array of logits. -/
def hostLogSoftmax (l : FVec Ideal L .f32) (hr' : L.ReducesTo [1] R) (hu : 0 < S0.numel)
    (hb0 : S0.BroadcastsInDim R ![]) (h1 : R.BroadcastsInDim C ![0]) (h2 : C.BroadcastsInDim L ![0, 1]) : FVec Ideal L .f32 :=
  subf (subf l (broadcastInDim L ![0, 1] h2 (broadcastInDim C ![0] h1
      (maximumf (broadcastInDim R ![] hb0 (constant (F := Ideal) S0 .f32 0xFF800000#32))
        (Host.reduce FloatOps.maximumf l (constant (F := Ideal) S0 .f32 0xFF800000#32) hr' hu)))))
    (broadcastInDim L ![0, 1] h2 (Host.log (broadcastInDim C ![0] h1 (Host.reduceAdd (Host.exp (subf l
      (broadcastInDim L ![0, 1] h2 (broadcastInDim C ![0] h1
        (maximumf (broadcastInDim R ![] hb0 (constant (F := Ideal) S0 .f32 0xFF800000#32))
          (Host.reduce FloatOps.maximumf l (constant (F := Ideal) S0 .f32 0xFF800000#32) hr' hu))))))
      (constant (F := Ideal) S0 .f32 0x00000000#32) hr' hu))))

/-- Read at (b, j) it is the log-softmax of row b. -/
theorem hostLogSoftmax_apply (l : FVec Ideal L .f32) (hr' : L.ReducesTo [1] R) (hr : L.Reduces [1] R) (hu : 0 < S0.numel)
    (hb0 : S0.BroadcastsInDim R ![]) (h1 : R.BroadcastsInDim C ![0]) (h2 : C.BroadcastsInDim L ![0, 1])
    (b : Fin 128) (j : Fin 2) :
    hostLogSoftmax l hr' hu hb0 h1 h2 (ix2 b j) = logSoftmaxRow (fun k => l (ix2 b k)) j := by
  have hs : ∀ k : Fin 2, subf l (broadcastInDim L ![0, 1] h2 (broadcastInDim C ![0] h1
      (maximumf (broadcastInDim R ![] hb0 (constant (F := Ideal) S0 .f32 0xFF800000#32))
        (Host.reduce FloatOps.maximumf l (constant (F := Ideal) S0 .f32 0xFF800000#32) hr' hu)))) (ix2 b k)
      = l (ix2 b k) - rowMax (fun k => l (ix2 b k)) := fun k => by
    rw [subf_apply, host_keep_apply, host_rowMax_apply l hr' hr]
  unfold hostLogSoftmax logSoftmaxRow
  rw [subf_apply, hs j]
  congr 1
  rw [host_keep_log_apply, host_rowSum_apply _ hr' hr]
  congr 1
  exact Finset.sum_congr rfl fun k _ => congrArg Ideal.exp (hs k)

end Cert.LogSoftmaxRows

end
-- ==== Proof.HeadSpec.lean ====
/-
  The classifier head on pooled token weights, one row at a time, on the extended reals.

  A row p of 32000 pooled weights goes through a dense layer to 1024 hidden units (w1, b1), the rectifier, a dense layer
  to two logits (w2, b2) and the log-softmax of the two logits:

      head p j = logSoftmax (k ↦ Σ_c relu ((Σ_v p v · w1[v, c]) + b1[c]) · w2[c, k] + b2[k]) j.

  The contraction over the 32000 weights may be taken all at once, or tile by tile: 10 tiles of 3200 consecutive
  weights, a running total that starts from the f32 zero word (the real 0) plus tile 0's partial sum and adds one more
  tile's partial sum per step.  After the tenth step the running total is 0 + the whole sum, by associativity of + alone,
  so the two ways agree whatever the entries are — infinite ones included.
-/
import proofs.«179024_j86517821216492_1_alg».proof.Proof.LibBlockSum
import proofs.«179024_j86517821216492_1_alg».proof.Proof.LibDenseRows
import proofs.«179024_j86517821216492_1_alg».proof.Proof.LogSoftmaxRows

noncomputable section

namespace Cert.PooledHead

open Idealize.ShloMosaic Idealize.ShloMosaic.ValueIdx Cert.LibDenseRows Cert.LogSoftmaxRows

/-- One row of pooled weights through the head, at logit j. -/
def headRow (p : Fin 32000 → EReal) (w1 : (⟨2, ![32000, 1024]⟩ : Shape).Idx → EReal) (b1 : (⟨2, ![1, 1024]⟩ : Shape).Idx → EReal)
    (w2 : (⟨2, ![1024, 2]⟩ : Shape).Idx → EReal) (b2 : (⟨2, ![1, 2]⟩ : Shape).Idx → EReal) (j : Fin 2) : EReal :=
  logSoftmaxRow (fun k => denseRow (fun c => relu (denseRow p w1 b1 c)) w2 b2 k) j

/-- The head of a whole [128, 32000] array of pooled weights: entry (b, j) is row b through the head, at j. -/
def headArr (P : (⟨2, ![128, 32000]⟩ : Shape).Idx → EReal) (w1 : (⟨2, ![32000, 1024]⟩ : Shape).Idx → EReal)
    (b1 : (⟨2, ![1, 1024]⟩ : Shape).Idx → EReal) (w2 : (⟨2, ![1024, 2]⟩ : Shape).Idx → EReal)
    (b2 : (⟨2, ![1, 2]⟩ : Shape).Idx → EReal) : (⟨2, ![128, 2]⟩ : Shape).Idx → EReal :=
  fun i => headRow (fun v => P (ix2 (i 0 : Fin 128) v)) w1 b1 w2 b2 (i 1 : Fin 2)

/-- The head with the two biases given as vectors, each laid out as one row. -/
def headOf (P : (⟨2, ![128, 32000]⟩ : Shape).Idx → EReal) (w1 : (⟨2, ![32000, 1024]⟩ : Shape).Idx → EReal)
    (b1 : (⟨1, ![1024]⟩ : Shape).Idx → EReal) (w2 : (⟨2, ![1024, 2]⟩ : Shape).Idx → EReal)
    (b2 : (⟨1, ![2]⟩ : Shape).Idx → EReal) : (⟨2, ![128, 2]⟩ : Shape).Idx → EReal :=
  headArr P w1 (broadcastInDim ⟨2, ![1, 1024]⟩ ![1] (by decide) b1) w2 (broadcastInDim ⟨2, ![1, 2]⟩ ![1] (by decide) b2)

/-- A total accumulated over 10 steps, tile t being the 3200 entries from 3200 t on, is at step 9 the start z plus the
    sum over all 32000 entries. -/
theorem running_total_32000 {M : Type*} [AddCommMonoid M] (a : Fin 10 → M) (f : Fin 32000 → M) (z : M)
    (h0 : a 0 = z + ∑ y : Fin 3200, f ⟨0 * 3200 + y.val, by have := y.isLt; omega⟩)
    (hs : ∀ (t : ℕ) (h : t + 1 < 10), a ⟨t + 1, h⟩ = a ⟨t, Nat.lt_of_succ_lt h⟩
        + ∑ y : Fin 3200, f ⟨(t + 1) * 3200 + y.val, by have := y.isLt; omega⟩) :
    a 9 = z + ∑ i : Fin 32000, f i :=
  Cert.Lib.BatchNorm.running_total_blocks_fin 10 3200 (by norm_num) a f z h0 hs

/-- The epilogue applied to a hidden pre-activation that is the zero word plus the whole contraction is the head. -/
theorem head_of_total (p : Fin 32000 → EReal) (w1 : (⟨2, ![32000, 1024]⟩ : Shape).Idx → EReal)
    (b1 : (⟨2, ![1, 1024]⟩ : Shape).Idx → EReal) (w2 : (⟨2, ![1024, 2]⟩ : Shape).Idx → EReal)
    (b2 : (⟨2, ![1, 2]⟩ : Shape).Idx → EReal) (acc : Fin 1024 → EReal)
    (hacc : ∀ c, acc c = Ideal.ofBits .f32 0x00000000#32 + ∑ v : Fin 32000, p v * w1 (ix2 v c)) (j : Fin 2) :
    logSoftmaxRow (fun k => denseRow (fun c => relu (acc c + b1 (ix2 (0 : Fin 1) c))) w2 b2 k) j = headRow p w1 b1 w2 b2 j := by
  have e : (fun c => relu (acc c + b1 (ix2 (0 : Fin 1) c))) = fun c => relu (denseRow p w1 b1 c) :=
    funext fun c => by rw [hacc c, Ideal.ofBits_zero_f32, zero_add]; rfl
  unfold headRow
  rw [e]

end Cert.PooledHead

end
-- ==== Proof.PayloadAt.lean ====
/-
  The kernel body's three pure payloads read at an entry, on the extended reals.

  The zero block is the f32 zero word everywhere.  The accumulator update at entry (b, h) is what the accumulator held
  there plus the tile product  Σ_y p[b, y] · w[y, h]  over the tile's 3200 columns (the narrowing of both operands to
  bf16 on the way into the matrix unit is the identity here, and a matrix product into a zero splat is the plain sum).  The
  epilogue at entry (b, j) is the log-softmax over the two logits of row b, the logits being the second dense layer of the
  rectified, biased accumulator row.
-/
import proofs.«179024_j86517821216492_1_alg».proof.Proof.Gen.KernelIdeal.Skeleton
import proofs.«179024_j86517821216492_1_alg».proof.Proof.HeadSpec
import Idealize.ShloMosaic.Lib.Pipeline.Value

noncomputable section

open Idealize.ShloMosaic Idealize.ShloMosaic.ValueIdx

namespace Cert.KernelIdeal.PayloadAt

open Cert.KernelIdeal Cert.KernelIdeal.Gen Cert.LibDenseRows Cert.LogSoftmaxRows

/-- The zero block at any entry. -/
theorem zero_block_apply (i : S128x1024.Idx) : k0_pay1 (F := Ideal) i = Ideal.ofBits .f32 0x00000000#32 := by
  unfold k0_pay1
  simp only [shapeCast_self]
  rfl

/-- The accumulator update at entry (b, h). -/
theorem update_apply (w : Vec Ideal S3200x1024 .f32) (acc : Vec Ideal S128x1024 .f32) (p : Vec Ideal S128x3200 .bf16)
    (b : Fin 128) (h : Fin 1024) :
    k0_pay2 (F := Ideal) w acc p (ix2 b h) = acc (ix2 b h) + ∑ y : Fin 3200, p (ix2 b y) * w (ix2 y h) := by
  have e : k0_pay2 (F := Ideal) w acc p
      = addf acc (matmul (φ₁ := .bf16) (DotDims.plain 128 3200 1024) none p (truncf .bf16 w bitsLt_bf16_f32)
          (constant ⟨2, ![128, 1024]⟩ .f32 0x00000000#32)) := by
    unfold k0_pay2
    simp only [shapeCast_self]
    rfl
  rw [e, addf_apply, matmul_zero_eq_dotGeneral, StackMember.dotGeneral_plain_apply]
  rfl

/-- The epilogue at entry (b, j). -/
theorem epilogue_apply (acc : Vec Ideal S128x1024 .f32) (b1 : Vec Ideal S1x1024 .f32) (w2 : Vec Ideal S1024x2 .f32)
    (b2 : Vec Ideal S1x2 .f32) (b : Fin 128) (j : Fin 2) :
    k0_pay3 (F := Ideal) acc b1 w2 b2 (ix2 b j)
      = logSoftmaxRow (fun k => denseRow (fun c => relu (acc (ix2 b c) + b1 (ix2 (0 : Fin 1) c))) w2 b2 k) j := by
  have e : k0_pay3 (F := Ideal) acc b1 w2 b2 = kernelLogSoftmax
      (addf (matmul (DotDims.plain 128 1024 2) none
          (truncf .bf16 (maximumf (addf acc (broadcastTo ⟨2, ![128, 1024]⟩ b1 broadcasts_S1x1024_S128x1024))
            (broadcast ⟨2, ![128, 1024]⟩ (Scalar.ofBits (F := Ideal) .f32 0x00000000#32))) bitsLt_bf16_f32)
          (truncf .bf16 w2 bitsLt_bf16_f32) (constant ⟨2, ![128, 2]⟩ .f32 0x00000000#32))
        (broadcastTo ⟨2, ![128, 2]⟩ b2 broadcasts_S1x2_S128x2))
      reduces_S128x2_S128 (.inl rfl) rfl rfl shapeCasts_S128_S128x1 broadcasts_S128x1_S128x2 := by
    unfold k0_pay3 kernelLogSoftmax
    simp only [shapeCast_self]
    rfl
  refine (congrFun e (ix2 b j)).trans ((kernelLogSoftmax_apply _ _ _ _ _ _ _ b j).trans ?_)
  congr 1
  funext k
  refine (kernel_dense_apply _ _ b2 broadcasts_S1x2_S128x2 b k).trans ?_
  congr 1
  funext c
  show relu (acc (ix2 b c) + broadcastTo ⟨2, ![128, 1024]⟩ b1 broadcasts_S1x1024_S128x1024 (ix2 b c)) = _
  rw [broadcastTo_1b_ab_apply]

end Cert.KernelIdeal.PayloadAt

end
-- ==== Proof.KernelValue.lean ====
/-
  What the kernel's result array holds: the head of the pooled token weights.

  The accumulator after grid point t is, entry by entry, a running total: after point 0 it is the zero word plus tile 0's
  product, and each later point adds its own tile's product,

      acc_t[b, h] = acc_(t-1)[b, h] + Σ_(y < 3200) P[b, 3200 t + y] · w1[3200 t + y, h].

  The ten tiles of 3200 columns make up all 32000 columns, so after the last point
  acc_9[b, h] = 0 + Σ_(v < 32000) P[b, v] · w1[v, h]  — by associativity of + on the extended reals alone.  The last point
  then stores the epilogue of acc_9 into the output block, which is the whole [128, 2] result array and is written back
  at that point only.  So the result array is the head (dense, rectifier, dense, log-softmax) of P, row by row.
-/
import proofs.«179024_j86517821216492_1_alg».proof.Proof.Gen.KernelIdeal.Value
import proofs.«179024_j86517821216492_1_alg».proof.Proof.KernelPieces
import proofs.«179024_j86517821216492_1_alg».proof.Proof.KernelBlocks
import proofs.«179024_j86517821216492_1_alg».proof.Proof.PayloadAt
import proofs.«179024_j86517821216492_1_alg».proof.Proof.HeadSpec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.HeadValue

open Cert.KernelIdeal Cert.KernelIdeal.Gen Cert.KernelIdeal.Pieces Cert.KernelIdeal.Blocks Cert.KernelIdeal.PayloadAt
open Cert.LibDenseRows Cert.LogSoftmaxRows Cert.PooledHead

variable (m : (ℓ : Loc nD τ sig) → Buf (Elt Ideal) ℓ) (ρ : Dev nD → PrngReg)

/-! ## The arrays the region finds, as arrays of extended reals -/

/-- The pooled token weights, the two weight matrices and the two bias rows as the region finds them. -/
abbrev pooled (c : Dev nD) : S128x32000.Idx → EReal := V m c main_v42
abbrev weights1 (c : Dev nD) : S32000x1024.Idx → EReal := V m c main_arg3
abbrev bias1 (c : Dev nD) : S1x1024.Idx → EReal := V m c main_v43
abbrev weights2 (c : Dev nD) : S1024x2.Idx → EReal := V m c main_arg5
abbrev bias2 (c : Dev nD) : S1x2.Idx → EReal := V m c main_v44

/-! ## The accumulator, point by point -/

/-- After the first point: the zero block plus tile 0's product. -/
theorem acc_start (c : Dev nD) (t : Fin cfg0.N) (h0 : t.val % 10 = 0) :
    (outsAt0 m c t.val t.isLt).2 = k0_pay2 (iblk m c 1 t) (k0_pay1 (F := Ideal)) (iblk m c 0 t) := by
  have h1 : ¬t.val % 10 = 9 := by omega
  rw [outsAt0_A m c t h0 h1]
  dsimp only
  exact acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- After any later point: what the point before left plus this tile's product. -/
theorem acc_step (c : Dev nD) (t : Fin cfg0.N) (h0 : ¬t.val % 10 = 0) :
    (outsAt0 m c t.val t.isLt).2 = k0_pay2 (iblk m c 1 t) (outsAt0 m c (t.val - 1) (Nat.lt_of_le_of_lt (Nat.sub_le _ _) t.isLt)).2 (iblk m c 0 t) := by
  by_cases h1 : t.val % 10 = 9
  · rw [outsAt0_C m c t h0 h1]
    dsimp only
    exact acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  · rw [outsAt0_B m c t h0 h1]
    dsimp only
    exact acc_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- At the last point the output block receives the epilogue of the accumulator that point leaves. -/
theorem out_at_last (c : Dev nD) (t : Fin cfg0.N) (h1 : t.val % 10 = 9) :
    (outsAt0 m c t.val t.isLt).1
      = k0_pay3 (outsAt0 m c t.val t.isLt).2 (iblk m c 2 t) (iblk m c 3 t) (iblk m c 4 t) := by
  have h0 : ¬t.val % 10 = 0 := by omega
  rw [outsAt0_C m c t h0 h1]
  dsimp only
  exact (out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).trans
    (congrArg (fun a => k0_pay3 a (iblk m c 2 t) (iblk m c 3 t) (iblk m c 4 t))
      (acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).symm)

/-! ## The accumulator at an entry -/

/-- Entry (b, h) after the first point: the zero word plus tile 0's partial sum. -/
theorem acc_entry_start (c : Dev nD) (t : Fin cfg0.N) (h0 : t.val % 10 = 0) (b : Fin 128) (h : Fin 1024) :
    (outsAt0 m c t.val t.isLt).2 (ix2 b h)
      = Ideal.ofBits .f32 0x00000000#32 + ∑ y : Fin 3200,
          pooled m c (ix2 b ⟨t.val * 3200 + y.val, tile_lt t y⟩) * weights1 m c (ix2 ⟨t.val * 3200 + y.val, tile_lt t y⟩ h) := by
  rw [acc_start m c t h0]
  refine (update_apply (iblk m c 1 t) (k0_pay1 (F := Ideal)) (iblk m c 0 t) b h).trans ?_
  rw [zero_block_apply]
  refine congrArg (_ + ·) (Finset.sum_congr rfl fun y _ => ?_)
  rw [pooled_block_apply m c t b y, weights1_block_apply m c t y h]

/-- Entry (b, h) after a later point: the entry after the point before plus this tile's partial sum. -/
theorem acc_entry_step (c : Dev nD) (t : Fin cfg0.N) (h0 : ¬t.val % 10 = 0) (b : Fin 128) (h : Fin 1024) :
    (outsAt0 m c t.val t.isLt).2 (ix2 b h)
      = (outsAt0 m c (t.val - 1) (Nat.lt_of_le_of_lt (Nat.sub_le _ _) t.isLt)).2 (ix2 b h) + ∑ y : Fin 3200,
          pooled m c (ix2 b ⟨t.val * 3200 + y.val, tile_lt t y⟩) * weights1 m c (ix2 ⟨t.val * 3200 + y.val, tile_lt t y⟩ h) := by
  rw [acc_step m c t h0]
  refine (update_apply (iblk m c 1 t) (outsAt0 m c (t.val - 1) (Nat.lt_of_le_of_lt (Nat.sub_le _ _) t.isLt)).2 (iblk m c 0 t) b h).trans ?_
  refine congrArg (_ + ·) (Finset.sum_congr rfl fun y _ => ?_)
  rw [pooled_block_apply m c t b y, weights1_block_apply m c t y h]

/-- The same step with the point before named by its own number. -/
theorem acc_entry_succ (c : Dev nD) (n : ℕ) (hn : n + 1 < cfg0.N) (b : Fin 128) (h : Fin 1024) :
    (outsAt0 m c (n + 1) hn).2 (ix2 b h)
      = (outsAt0 m c n (Nat.lt_of_succ_lt hn)).2 (ix2 b h) + ∑ y : Fin 3200,
          pooled m c (ix2 b ⟨(n + 1) * 3200 + y.val, tile_lt ⟨n + 1, hn⟩ y⟩) * weights1 m c (ix2 ⟨(n + 1) * 3200 + y.val, tile_lt ⟨n + 1, hn⟩ y⟩ h) :=
  acc_entry_step m c ⟨n + 1, hn⟩ (by show ¬(n + 1) % 10 = 0; have : n + 1 < 10 := lt_of_lt_of_eq hn N_0; omega) b h

/-- The running-total law with the steps counted by natural numbers below 10, the last step named by an equation. -/
theorem running_total_32000_nat {M : Type*} [AddCommMonoid M] (A : (n : ℕ) → n < 10 → M) (f : Fin 32000 → M) (z : M)
    (h0 : A 0 (by norm_num) = z + ∑ y : Fin 3200, f ⟨0 * 3200 + y.val, by have := y.isLt; omega⟩)
    (hs : ∀ (n : ℕ) (h : n + 1 < 10), A (n + 1) h = A n (Nat.lt_of_succ_lt h)
        + ∑ y : Fin 3200, f ⟨(n + 1) * 3200 + y.val, by have := y.isLt; omega⟩)
    (n : ℕ) (hn : n < 10) (h9 : n = 9) : A n hn = z + ∑ i : Fin 32000, f i := by
  subst h9
  exact running_total_32000 (fun s : Fin 10 => A s.val s.isLt) f z h0 hs

/-- Entry (b, h) after the last point: the zero word plus the whole contraction over the 32000 pooled weights. -/
theorem acc_entry_last (c : Dev nD) (t : Fin cfg0.N) (h9 : t.val = 9) (b : Fin 128) (h : Fin 1024) :
    (outsAt0 m c t.val t.isLt).2 (ix2 b h)
      = Ideal.ofBits .f32 0x00000000#32 + ∑ v : Fin 32000, pooled m c (ix2 b v) * weights1 m c (ix2 v h) := by
  have hlt : ∀ n : ℕ, n < 10 → n < cfg0.N := fun n hn => lt_of_lt_of_eq hn N_0.symm
  have h0 : (outsAt0 m c 0 (hlt 0 (by norm_num))).2 (ix2 b h)
      = Ideal.ofBits .f32 0x00000000#32 + ∑ y : Fin 3200,
          pooled m c (ix2 b ⟨0 * 3200 + y.val, by have := y.isLt; omega⟩) * weights1 m c (ix2 ⟨0 * 3200 + y.val, by have := y.isLt; omega⟩ h) :=
    acc_entry_start m c ⟨0, hlt 0 (by norm_num)⟩ rfl b h
  exact running_total_32000_nat (M := EReal)
    (fun n hn => ((outsAt0 m c n (hlt n hn)).2 (ix2 b h) : EReal))
    (fun v : Fin 32000 => pooled m c (ix2 b v) * weights1 m c (ix2 v h))
    (Ideal.ofBits .f32 0x00000000#32 : EReal) h0
    (fun n hn => acc_entry_succ m c n (hlt (n + 1) hn) b h)
    t.val (lt_of_lt_of_eq t.isLt N_0) h9

/-! ## The result array -/

/-- The head of the arrays the region finds. -/
abbrev result (c : Dev nD) : Buf (Elt Ideal) ((c : Thread nD τ).loc main_v45) :=
  headArr (pooled m c) (weights1 m c) (bias1 m c) (weights2 m c) (bias2 m c)

/-- What the last point stores into the output block is that head. -/
theorem out_value_at (c : Dev nD) (t : Fin cfg0.N) (h9 : t.val = 9) : (outsAt0 m c t.val t.isLt).1 = result m c := by
  rw [out_at_last m c t (by omega), bias1_block m c t, weights2_block m c t, bias2_block m c t]
  funext i
  obtain ⟨b, j, rfl⟩ : ∃ (b : Fin 128) (j : Fin 2), i = ix2 b j := ⟨i 0, i 1, eq_ix2 i⟩
  refine (epilogue_apply (outsAt0 m c t.val t.isLt).2 (bias1 m c) (weights2 m c) (bias2 m c) b j).trans ?_
  exact head_of_total (fun v => pooled m c (ix2 b v)) (weights1 m c) (bias1 m c) (weights2 m c) (bias2 m c)
    (fun c' => (outsAt0 m c t.val t.isLt).2 (ix2 b c')) (fun c' => acc_entry_last m c t h9 b c') j

/-- The same at the grid's last point, by name. -/
theorem out_value (c : Dev nD) : (outsAt0 m c t0_9.val t0_9.isLt).1 = result m c := out_value_at m c t0_9 rfl

/-- The one write-back, at the last point, writes it: the output's block is the whole array read through zero offsets. -/
theorem flushed_eq (c : Dev nD) (t : Fin cfg0.N) (hf : (cfg0.win 5).flush t = true) :
    (dats m 0 c).flushed 5 t = ((cfg0.win 5).blk t).view.read (Elt Ideal) (result m c) := by
  have hN : cfg0.N = 10 := N_0
  have h9 : t.val = 9 := by have := (flush0_5 t).mp hf; have := t.isLt; omega
  obtain rfl : t = t0_9 := Fin.ext h9
  show (cfg0.win 5).cut (grid0.coords t0_9) ((dats m 0 c).after 5 t0_9) = _
  rw [after0_5, out_value]
  have hi : win0_5.index t0_9 (0 : Fin 2) = 0 ∧ win0_5.index t0_9 (1 : Fin 2) = 0 := by decide +kernel
  have hz' : (fun a => win0_5.index t0_9 a * main_v45.ty.shape.size a) = fun _ => 0 := funext fun a => by
    match a with
    | ⟨0, _⟩ => show win0_5.index t0_9 0 * _ = 0; rw [hi.1, Nat.zero_mul]
    | ⟨1, _⟩ => show win0_5.index t0_9 1 * _ = 0; rw [hi.2, Nat.zero_mul]
  exact (Memref.read_access_unit_zero (Elt Ideal) main_v45 hz' (fun a => by rw [congrFun hz' a]; simp) (result m c)).symm

/-- So the result array ends holding the head: the last point's block covers it. -/
theorem final (c : Dev nD) : (dats m 0 c).arrAt 5 cfg0.N = result m c :=
  (dats m 0 c).arrAt_eq_of_cover 5 (result m c) (flushed_eq m c) fun i =>
    ⟨t0_9, (flush0_5 t0_9).mpr rfl, by
      show i ∈ ((View.whole main_v45).slice (win0_5.rect t0_9)).set
      rw [View.set_slice_whole, Rect.mem_set_unit]
      intro a
      have h0 : (i 0 : Nat) < 128 := (i 0).isLt
      have h1 : (i 1 : Nat) < 2 := (i 1).isLt
      match a with
      | ⟨0, _⟩ => show win0_5.index t0_9 0 * win0_5.size 0 ≤ (i 0 : Nat) ∧ (i 0 : Nat) < win0_5.index t0_9 0 * win0_5.size 0 + win0_5.xsize (grid0.coords t0_9) 0
                  rw [show win0_5.index t0_9 0 * win0_5.size 0 = 0 from by decide +kernel, show win0_5.xsize (grid0.coords t0_9) 0 = 128 from by decide +kernel]; omega
      | ⟨1, _⟩ => show win0_5.index t0_9 1 * win0_5.size 1 ≤ (i 1 : Nat) ∧ (i 1 : Nat) < win0_5.index t0_9 1 * win0_5.size 1 + win0_5.xsize (grid0.coords t0_9) 1
                  rw [show win0_5.index t0_9 1 * win0_5.size 1 = 0 from by decide +kernel, show win0_5.xsize (grid0.coords t0_9) 1 = 2 from by decide +kernel]; omega⟩

/-- The head of what the region finds is the head of the arguments: the pooled array is the reference's own, the weight
    matrices are the arguments, and a bias vector laid out as one row by a reshape is its broadcast along axis 1. -/
theorem result_args (c : Dev nD) :
    result m c = headOf
      (Cert.ReferenceIdeal.Read.val_main_v41 (F := Ideal) (m ((c : Thread nD τ).loc main_arg0))
        (m ((c : Thread nD τ).loc main_arg1)) (m ((c : Thread nD τ).loc main_arg2)))
      (m ((c : Thread nD τ).loc main_arg3)) (m ((c : Thread nD τ).loc main_arg4))
      (m ((c : Thread nD τ).loc main_arg5)) (m ((c : Thread nD τ).loc main_arg6)) := by
  unfold result headOf pooled weights1 bias1 weights2 bias2
  rw [found_pooled m c, V_main_arg3 m c, found_bias1 m c, V_main_arg5 m c, found_bias2 m c]
  rw [oneRow_cast_eq_bcast _ _ (by decide), oneRow_cast_eq_bcast _ _ (by decide)]

/-- The run, read: the result array at the head of the arguments, the arguments unchanged. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.HeadValue

end
-- ==== Proof.RefValue.lean ====
/-
  The reference's result, read as the head of the pooled token weights.

  After computing the pooled weights P the reference applies a dense layer (a whole contraction over the 32000 pooled
  weights, plus the first bias broadcast down the rows), the rectifier, a second dense layer to two logits, and the
  log-softmax of each row.  Read at an entry (b, j) this is row b of P through the head, at j.
-/
import proofs.«179024_j86517821216492_1_alg».proof.Proof.Gen.ReferenceIdeal.Read
import proofs.«179024_j86517821216492_1_alg».proof.Proof.HeadSpec

noncomputable section

open Idealize.ShloMosaic Idealize.ShloMosaic.ValueIdx

namespace Cert.ReferenceIdeal.RefValue

open Cert.ReferenceIdeal Cert.ReferenceIdeal.Gen Cert.ReferenceIdeal.Read Cert.LibDenseRows Cert.LogSoftmaxRows Cert.PooledHead

set_option maxRecDepth 8192 in
/-- The reference's result array is the head of its pooled array, the first weights, the first bias, the second weights
    and the second bias. -/
theorem result_eq (x0 : (⟨S128x2048, .i32⟩ : BufTy).Contents (Elt Ideal)) (x1 : (⟨S32000, .f32⟩ : BufTy).Contents (Elt Ideal))
    (x2 : (⟨S1, .f32⟩ : BufTy).Contents (Elt Ideal)) (x3 : (⟨S32000x1024, .f32⟩ : BufTy).Contents (Elt Ideal))
    (x4 : (⟨S1024, .f32⟩ : BufTy).Contents (Elt Ideal)) (x5 : (⟨S1024x2, .f32⟩ : BufTy).Contents (Elt Ideal))
    (x6 : (⟨S2, .f32⟩ : BufTy).Contents (Elt Ideal)) :
    val_main_v51 (F := Ideal) x0 x1 x2 x3 x4 x5 x6 = headOf (val_main_v41 (F := Ideal) x0 x1 x2) x3 x4 x5 x6 := by
  have e : val_main_v51 (F := Ideal) x0 x1 x2 x3 x4 x5 x6 = hostLogSoftmax
      (addf (Host.dotGeneral (φ₁ := .f32) (φ₂ := .f32) (DotDims.plain 128 1024 2) none
          (maximumf (addf (Host.dotGeneral (φ₁ := .f32) (φ₂ := .f32) (DotDims.plain 128 32000 1024) none (val_main_v41 (F := Ideal) x0 x1 x2) x3)
              (broadcastInDim ⟨2, ![128, 1024]⟩ ![0, 1] bcast_S1x1024_S128x1024_0_1
                (broadcastInDim ⟨2, ![1, 1024]⟩ ![1] bcast_S1024_S1x1024_1 x4)))
            (broadcastInDim ⟨2, ![128, 1024]⟩ ![] bcast_S_S128x1024 (constant (F := Ideal) ⟨0, ![]⟩ .f32 0x00000000#32))) x5)
        (broadcastInDim ⟨2, ![128, 2]⟩ ![0, 1] bcast_S1x2_S128x2_0_1 (broadcastInDim ⟨2, ![1, 2]⟩ ![1] bcast_S2_S1x2_1 x6)))
      reducesTo_S128x2_S128_d1 h_S_ bcast_S_S128 bcast_S128_S128x1_0 bcast_S128x1_S128x2_0_1 := by
    unfold hostLogSoftmax
    simp only [val_main_v51, val_main_call2_v10, val_main_call2_v9, val_main_call2_v8, val_main_call2_v7, val_main_call2_cst_1,
      val_main_call2_v6, val_main_call2_v5, val_main_call2_v4, val_main_call2_v3, val_main_call2_v2, val_main_call2_v1,
      val_main_call2_cst_0, val_main_call2_v0, val_main_call2_cst, val_main_v50, val_main_v49, val_main_v48, val_main_v47,
      val_main_v46, val_main_call1_v0, val_main_call1_cst, val_main_v45, val_main_v44, val_main_v43, val_main_v42]
    rfl
  funext i
  obtain ⟨b, j, rfl⟩ : ∃ (b : Fin 128) (j : Fin 2), i = ix2 b j := ⟨i 0, i 1, eq_ix2 i⟩
  have hr : (⟨2, ![128, 2]⟩ : Shape).Reduces [1] ⟨1, ![128]⟩ := by decide
  refine (congrFun e (ix2 b j)).trans ((hostLogSoftmax_apply _ reducesTo_S128x2_S128_d1 hr h_S_ bcast_S_S128
    bcast_S128_S128x1_0 bcast_S128x1_S128x2_0_1 b j).trans ?_)
  unfold headOf headArr headRow
  refine congrArg (fun l => logSoftmaxRow l j) (funext fun k => ?_)
  refine (host_dense_apply _ x5 _ bcast_S1x2_S128x2_0_1 b k).trans ?_
  refine congrArg (fun r => denseRow r x5 _ k) (funext fun c => ?_)
  exact host_relu_dense_apply (val_main_v41 (F := Ideal) x0 x1 x2) x3 _ bcast_S1x1024_S128x1024_0_1 bcast_S_S128x1024 b c

end Cert.ReferenceIdeal.RefValue

end
-- ==== Proof.lean ====
/-
  A pooled-embedding classifier: token ids x [128, 2048], attention weights over a 32000-word vocabulary, and a two-layer
  head.  Both programs first compute, in the same host operations, the pooled token weights P [128, 32000]: a masked
  softmax over each sequence of the gathered attention weights, scatter-added into the vocabulary bins.  They differ in
  how the head is applied to P.

    reference:  log_softmax (relu (P · w1 + b1) · w2 + b2)             — one contraction over all 32000 pooled weights;
    kernel:     ten grid points, point t adding  P[:, 3200 t : 3200 t + 3200] · w1[3200 t : 3200 t + 3200, :]  to an
                accumulator that starts at zero, the last point applying bias, rectifier, second layer and log-softmax.

  On the extended reals a change of float format is the identity, a matrix product into a zero accumulator is the plain
  sum, and the kernel's accumulator after the last point is  0 + Σ_t Σ_y P[b, 3200 t + y] · w1[3200 t + y, h], which is
  Σ_v P[b, v] · w1[v, h]  by associativity and commutativity of + alone (Proof/HeadSpec.lean, over Proof/LibBlockSum.lean).
  No law that fails at an infinity is used, so the precondition (finite float inputs) is never opened.  The epilogues agree
  operation by operation: the same bias, the same rectifier against the zero word, the same second contraction, and a
  log-softmax whose row maximum and row sum both programs take from the same starting words (Proof/LogSoftmaxRows.lean).

  The frames of the two kernel programs are the generated ones; the reference's frame is its generated run with the
  result dropped; the idealization rewrote nothing, so there is nothing to preserve.
-/
import proofs.«179024_j86517821216492_1_alg».proof.Defs
import proofs.«179024_j86517821216492_1_alg».proof.Proof.Gen.Kernel
import proofs.«179024_j86517821216492_1_alg».proof.Proof.Gen.Kernel.Skeleton
import proofs.«179024_j86517821216492_1_alg».proof.Proof.Gen.Kernel.Launch
import proofs.«179024_j86517821216492_1_alg».proof.Proof.Gen.Kernel.Points
import proofs.«179024_j86517821216492_1_alg».proof.Proof.Gen.Kernel.Frame
import proofs.«179024_j86517821216492_1_alg».proof.Proof.Gen.KernelIdeal
import proofs.«179024_j86517821216492_1_alg».proof.Proof.Gen.KernelIdeal.Skeleton
import proofs.«179024_j86517821216492_1_alg».proof.Proof.Gen.KernelIdeal.Launch
import proofs.«179024_j86517821216492_1_alg».proof.Proof.Gen.KernelIdeal.Points
import proofs.«179024_j86517821216492_1_alg».proof.Proof.Gen.KernelIdeal.Frame
import proofs.«179024_j86517821216492_1_alg».proof.Proof.Gen.KernelIdeal.Value
import proofs.«179024_j86517821216492_1_alg».proof.Proof.Gen.ReferenceIdeal
import proofs.«179024_j86517821216492_1_alg».proof.Proof.Gen.ReferenceIdeal.Run
import proofs.«179024_j86517821216492_1_alg».proof.Proof.Gen.ReferenceIdeal.Read
import proofs.«179024_j86517821216492_1_alg».proof.Proof.Gen.Pre_finite_inputs
import proofs.«179024_j86517821216492_1_alg».proof.Proof.KernelValue
import proofs.«179024_j86517821216492_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the head of the pooled token weights of arguments that agree. -/
theorem algebraic : Cert.algebraic_KernelIdeal_ReferenceIdeal := by
  intro m ρ m' ρ' _ hagree
  refine ⟨fun c => Cert.KernelIdeal.HeadValue.result m c, Cert.KernelIdeal.HeadValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  show _ = Cert.KernelIdeal.HeadValue.result m c
  rw [Cert.ReferenceIdeal.Read.val_main_v51_eq, Cert.ReferenceIdeal.RefValue.result_eq,
    Cert.KernelIdeal.HeadValue.result_args, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
